-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_48" .f32 0x3CAAAAAB#32 ((1 / 48 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x16 : Shape := ⟨3, ![65536, 16, 16]⟩
abbrev S65536 : Shape := ⟨1, ![65536]⟩
abbrev S16x16 : Shape := ⟨2, ![16, 16]⟩
abbrev S256x256 : Shape := ⟨2, ![256, 256]⟩
abbrev S256 : Shape := ⟨1, ![256]⟩
abbrev S257x257 : Shape := ⟨2, ![257, 257]⟩
abbrev S257 : Shape := ⟨1, ![257]⟩
abbrev S257x256 : Shape := ⟨2, ![257, 256]⟩
abbrev S_ : Shape := ⟨0, ![]⟩

class Facts : Prop where
  bcast_S_S65536x16x16 : S_.BroadcastsInDim S65536x16x16 (![] : Fin 0 → Fin S65536x16x16.rank)
  reducesTo_S65536x16x16_S_d0_1_2 : S65536x16x16.ReducesTo [0, 1, 2] S_
  h_S_ : 0 < S_.numel
  bcast_S_S65536 : S_.BroadcastsInDim S65536 (![] : Fin 0 → Fin S65536.rank)
  reducesTo_S65536_S_d0 : S65536.ReducesTo [0] S_
  bcast_S_S16x16 : S_.BroadcastsInDim S16x16 (![] : Fin 0 → Fin S16x16.rank)
  reducesTo_S16x16_S_d0_1 : S16x16.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S257x257 : S_.BroadcastsInDim S257x257 (![] : Fin 0 → Fin S257x257.rank)
  reducesTo_S257x257_S_d0_1 : S257x257.ReducesTo [0, 1] S_
  bcast_S_S257 : S_.BroadcastsInDim S257 (![] : Fin 0 → Fin S257.rank)
  reducesTo_S257_S_d0 : S257.ReducesTo [0] S_
  bcast_S_S257x256 : S_.BroadcastsInDim S257x256 (![] : Fin 0 → Fin S257x256.rank)
  reducesTo_S257x256_S_d0_1 : S257x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S257 .f32) (main_arg12 : FVec F S257x256 .f32) (main_arg13 : FVec F S256 .f32) (main_v48 : IVec S_ 1) (main_v49 : FVec F S257x257 .f32) (main_v50 : FVec F S257x257 .f32) : IVec S_ 1 :=
  let main_v51 : IVec S257x257 1 := cmpf .olt main_v49 main_v50
  let main_c_19 : IVec S_ 1 := constantI S_ 1 1#1
  let main_v52 : IVec S_ 1 := (fun x v => Host.reduce IntOp.andi x v reducesTo_S257x257_S_d0_1 h_S_) main_v51 main_c_19
  let main_v53 : IVec S_ 1 := andi main_v48 main_v52
  let main_v54 : FVec F S257 .f32 := Host.absf main_arg11
  let main_cst_20 : FVec F S_ .f32 := constant S_ .f32 0x7F800000#32
  let main_v55 : FVec F S257 .f32 := broadcastInDim S257 ![] bcast_S_S257 main_cst_20
  let main_v56 : IVec S257 1 := cmpf .olt main_v54 main_v55
  let main_c_21 : IVec S_ 1 := constantI S_ 1 1#1
  let main_v57 : IVec S_ 1 := (fun x v => Host.reduce IntOp.andi x v reducesTo_S257_S_d0 h_S_) main_v56 main_c_21
  let main_v58 : IVec S_ 1 := andi main_v53 main_v57
  let main_v59 : FVec F S257x256 .f32 := Host.absf main_arg12
  let main_cst_22 : FVec F S_ .f32 := constant S_ .f32 0x7F800000#32
  let main_v60 : FVec F S257x256 .f32 := broadcastInDim S257x256 ![] bcast_S_S257x256 main_cst_22
  let main_v61 : IVec S257x256 1 := cmpf .olt main_v59 main_v60
  let main_c_23 : IVec S_ 1 := constantI S_ 1 1#1
  let main_v62 : IVec S_ 1 := (fun x v => Host.reduce IntOp.andi x v reducesTo_S257x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S257x257 .f32) (main_arg11 : FVec F S257 .f32) (main_arg12 : FVec F S257x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S257x257 .f32 := Host.absf main_arg10
  let main_cst_18 : FVec F S_ .f32 := constant S_ .f32 0x7F800000#32
  let main_v50 : FVec F S257x257 .f32 := broadcastInDim S257x257 ![] bcast_S_S257x257 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S257x257 .f32) (main_arg11 : FVec F S257 .f32) (main_arg12 : FVec F S257x256 .f32) (main_arg13 : FVec F S256 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x16x16 .f32) (main_arg1 : FVec F S65536 .f32) (main_arg2 : FVec F S65536 .f32) (main_arg3 : FVec F S16x16 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S257x257 .f32) (main_arg11 : FVec F S257 .f32) (main_arg12 : FVec F S257x256 .f32) (main_arg13 : FVec F S256 .f32) : IVec S_ 1 :=
  let main_v0 : FVec F S65536x16x16 .f32 := Host.absf main_arg0
  let main_cst : FVec F S_ .f32 := constant S_ .f32 0x7F800000#32
  let main_v1 : FVec F S65536x16x16 .f32 := broadcastInDim S65536x16x16 ![] bcast_S_S65536x16x16 main_cst
  let main_v2 : IVec S65536x16x16 1 := cmpf .olt main_v0 main_v1
  let main_c : IVec S_ 1 := constantI S_ 1 1#1
  let main_v3 : IVec S_ 1 := (fun x v => Host.reduce IntOp.andi x v reducesTo_S65536x16x16_S_d0_1_2 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x16x16 : Shape := ⟨3, ![65536, 16, 16]⟩
abbrev S65536 : Shape := ⟨1, ![65536]⟩
abbrev S16x16 : Shape := ⟨2, ![16, 16]⟩
abbrev S256x256 : Shape := ⟨2, ![256, 256]⟩
abbrev S256 : Shape := ⟨1, ![256]⟩
abbrev S257x257 : Shape := ⟨2, ![257, 257]⟩
abbrev S257 : Shape := ⟨1, ![257]⟩
abbrev S257x256 : Shape := ⟨2, ![257, 256]⟩
abbrev S65536x256 : Shape := ⟨2, ![65536, 256]⟩
abbrev S65536x1 : Shape := ⟨2, ![65536, 1]⟩
abbrev S1x256 : Shape := ⟨2, ![1, 256]⟩
abbrev S1x257 : Shape := ⟨2, ![1, 257]⟩
abbrev S1024x256 : Shape := ⟨2, ![1024, 256]⟩
abbrev S1024x1 : Shape := ⟨2, ![1024, 1]⟩
abbrev S1024 : Shape := ⟨1, ![1024]⟩
abbrev S256x257 : Shape := ⟨2, ![256, 257]⟩
abbrev S1024x257 : Shape := ⟨2, ![1024, 257]⟩

abbrev nBuf : Space → Nat
  | .hbm => 27
  | .vmem => 21
  | .smem => 0
  | _ => 0

abbrev bufTy : (tb : Table) → Fin (tcTables nBuf tb) → BufTy
  | .hbm, ⟨0, _⟩ => ⟨S65536x16x16, .f32⟩
  | .hbm, ⟨1, _⟩ => ⟨S65536, .f32⟩
  | .hbm, ⟨2, _⟩ => ⟨S65536, .f32⟩
  | .hbm, ⟨3, _⟩ => ⟨S16x16, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S257x257, .f32⟩
  | .hbm, ⟨11, _⟩ => ⟨S257, .f32⟩
  | .hbm, ⟨12, _⟩ => ⟨S257x256, .f32⟩
  | .hbm, ⟨13, _⟩ => ⟨S256, .f32⟩
  | .hbm, ⟨14, _⟩ => ⟨S65536x256, .f32⟩
  | .hbm, ⟨15, _⟩ => ⟨S65536x1, .f32⟩
  | .hbm, ⟨16, _⟩ => ⟨S65536x1, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x257, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S65536x16x16, .f32⟩
  | .hbm, ⟨26, _⟩ => ⟨S65536x16x16, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S257x257, .f32⟩
  | .local _ .vmem, ⟨14, _⟩ => ⟨S1x257, .f32⟩
  | .local _ .vmem, ⟨15, _⟩ => ⟨S257x256, .f32⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S65536x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S257x257 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x257 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S257x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S65536x16x16_S65536x256 : S65536x16x16.ShapeCasts S65536x256
  shapeCasts_S65536_S65536x1 : S65536.ShapeCasts S65536x1
  shapeCasts_S16x16_S1x256 : S16x16.ShapeCasts S1x256
  shapeCasts_S256_S1x256 : S256.ShapeCasts S1x256
  shapeCasts_S257_S1x257 : S257.ShapeCasts S1x257
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  broadcasts_S1024x1_S1024x256 : S1024x1.Broadcasts S1024x256
  reduces_S1024x256_S1024 : S1024x256.Reduces [1] S1024
  shapeCasts_S1024_S1024x1 : S1024.ShapeCasts S1024x1
  inb_S257x257_S256x257_0_0 : ∀ a, (![0, 0] : Fin 2 → Nat) a + S256x257.size a ≤ S257x257.size a
  h_S256x257 : 0 < S256x257.numel
  inb_S257x257_S1x257_256_0 : ∀ a, (![256, 0] : Fin 2 → Nat) a + S1x257.size a ≤ S257x257.size a
  h_S1x257 : 0 < S1x257.numel
  inb_S1x257_S1x257_0_0 : ∀ a, (![0, 0] : Fin 2 → Nat) a + S1x257.size a ≤ S1x257.size a
  shapeCasts_S1x257_S1x257 : S1x257.ShapeCasts S1x257
  broadcasts_S1024x1_S1024x257 : S1024x1.Broadcasts S1024x257
  broadcasts_S1x257_S1024x257 : S1x257.Broadcasts S1024x257
  inb_S257x256_S257x256_0_0 : ∀ a, (![0, 0] : Fin 2 → Nat) a + S257x256.size a ≤ S257x256.size a
  h_S257x256 : 0 < S257x256.numel
  shapeCasts_S65536x256_S65536x16x16 : S65536x256.ShapeCasts S65536x16x16
  dot_S1024x256_S256x256_S1024x256_1_0_0_1_n_n_wf : DotDims.WF S1024x256 S256x256 S1024x256 [1] [0] [0] [1] [] []
  dot_S1x256_S256x257_S1x257_1_0_0_1_n_n_wf : DotDims.WF S1x256 S256x257 S1x257 [1] [0] [0] [1] [] []
  dot_S1024x257_S257x256_S1024x256_1_0_0_1_n_n_wf : DotDims.WF S1024x257 S257x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S257x257.size a ≤ S257x257.size a
  hwx0_10 : ∀ i : grid0.Coords, EltTy.bits .f32 = 32 ∨ (Rect.block (s := S257x257) S257x257.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x257.size a ≤ S1x257.size a
  hwx0_11 : ∀ i : grid0.Coords, EltTy.bits .f32 = 32 ∨ (Rect.block (s := S1x257) S1x257.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S257x256.size a ≤ S257x256.size a
  hwx0_12 : ∀ i : grid0.Coords, EltTy.bits .f32 = 32 ∨ (Rect.block (s := S257x256) S257x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S65536x256.size a
  hwx0_14 : ∀ i : grid0.Coords, EltTy.bits .f32 = 32 ∨ (Rect.block (s := S65536x256) S1024x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S65536x256.size a
  hwx0_15 : ∀ i : grid0.Coords, EltTy.bits .f32 = 32 ∨ (Rect.block (s := S65536x256) S1024x256.size (cc0_transform_15 i) (hinb0_15 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1x256_S256x257_S1x257_1_0_0_1_n_n : DotDims S1x256 S256x257 S1x257 where
  lhsContracting := [1]
  rhsContracting := [0]
  lhsNonContracting := [0]
  rhsNonContracting := [1]
  lhsBatch := []
  rhsBatch := []
  wf := dot_S1x256_S256x257_S1x257_1_0_0_1_n_n_wf
def dot_S1024x257_S257x256_S1024x256_1_0_0_1_n_n : DotDims S1024x257 S257x256 S1024x256 where
  lhsContracting := [1]
  rhsContracting := [0]
  lhsNonContracting := [0]
  rhsNonContracting := [1]
  lhsBatch := []
  rhsBatch := []
  wf := dot_S1024x257_S257x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S257x257.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x257.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S257x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9_0) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_1) S1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x16x16 : Shape := ⟨3, ![65536, 16, 16]⟩
abbrev S65536 : Shape := ⟨1, ![65536]⟩
abbrev S16x16 : Shape := ⟨2, ![16, 16]⟩
abbrev S256x256 : Shape := ⟨2, ![256, 256]⟩
abbrev S256 : Shape := ⟨1, ![256]⟩
abbrev S257x257 : Shape := ⟨2, ![257, 257]⟩
abbrev S257 : Shape := ⟨1, ![257]⟩
abbrev S257x256 : Shape := ⟨2, ![257, 256]⟩
abbrev S1x16x16 : Shape := ⟨3, ![1, 16, 16]⟩
abbrev S_ : Shape := ⟨0, ![]⟩
abbrev S65536x1x1 : Shape := ⟨3, ![65536, 1, 1]⟩
abbrev S65536x256 : Shape := ⟨2, ![65536, 256]⟩
abbrev S1x256 : Shape := ⟨2, ![1, 256]⟩
abbrev S65536x1 : Shape := ⟨2, ![65536, 1]⟩
abbrev S65536x257 : Shape := ⟨2, ![65536, 257]⟩
abbrev S1x257 : Shape := ⟨2, ![1, 257]⟩

abbrev nBuf : Space → Nat
  | .hbm => 178
  | .vmem => 0
  | .smem => 0
  | _ => 0

abbrev hbmTy0_0 (i : Nat) : BufTy := match i % 128 with
  | 0 => ⟨S65536x16x16, .f32⟩
  | 1 => ⟨S65536, .f32⟩
  | 2 => ⟨S65536, .f32⟩
  | 3 => ⟨S16x16, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S257x257, .f32⟩
  | 11 => ⟨S257, .f32⟩
  | 12 => ⟨S257x256, .f32⟩
  | 13 => ⟨S256, .f32⟩
  | 14 => ⟨S1x16x16, .f32⟩
  | 15 => ⟨S65536x16x16, .f32⟩
  | 16 => ⟨S65536x16x16, .f32⟩
  | 17 => ⟨S_, .f32⟩
  | 18 => ⟨S65536, .f32⟩
  | 19 => ⟨S65536, .f32⟩
  | 20 => ⟨S65536x1x1, .f32⟩
  | 21 => ⟨S65536x16x16, .f32⟩
  | 22 => ⟨S65536x16x16, .f32⟩
  | 23 => ⟨S65536x256, .f32⟩
  | 24 => ⟨S65536x256, .f32⟩
  | 25 => ⟨S1x256, .f32⟩
  | 26 => ⟨S65536x256, .f32⟩
  | 27 => ⟨S65536x256, .f32⟩
  | 28 => ⟨S65536x256, .f32⟩
  | 29 => ⟨S65536x16x16, .f32⟩
  | 30 => ⟨S65536x16x16, .f32⟩
  | 31 => ⟨S65536x16x16, .f32⟩
  | 32 => ⟨S65536x256, .f32⟩
  | 33 => ⟨S65536x256, .f32⟩
  | 34 => ⟨S1x256, .f32⟩
  | 35 => ⟨S65536x256, .f32⟩
  | 36 => ⟨S65536x256, .f32⟩
  | 37 => ⟨S65536x256, .f32⟩
  | 38 => ⟨S65536x16x16, .f32⟩
  | 39 => ⟨S65536x16x16, .f32⟩
  | 40 => ⟨S65536x16x16, .f32⟩
  | 41 => ⟨S65536x256, .f32⟩
  | 42 => ⟨S65536x256, .f32⟩
  | 43 => ⟨S1x256, .f32⟩
  | 44 => ⟨S65536x256, .f32⟩
  | 45 => ⟨S65536x256, .f32⟩
  | 46 => ⟨S65536x256, .f32⟩
  | 47 => ⟨S65536x256, .f32⟩
  | 48 => ⟨S_, .f32⟩
  | 49 => ⟨S65536x256, .f32⟩
  | 50 => ⟨S65536x256, .f32⟩
  | 51 => ⟨S_, .f32⟩
  | 52 => ⟨S65536x256, .f32⟩
  | 53 => ⟨S65536x256, .f32⟩
  | 54 => ⟨S65536x16x16, .f32⟩
  | 55 => ⟨S65536x16x16, .f32⟩
  | 56 => ⟨S65536x16x16, .f32⟩
  | 57 => ⟨S65536x256, .f32⟩
  | 58 => ⟨S65536x256, .f32⟩
  | 59 => ⟨S1x256, .f32⟩
  | 60 => ⟨S65536x256, .f32⟩
  | 61 => ⟨S65536x256, .f32⟩
  | 62 => ⟨S65536x256, .f32⟩
  | 63 => ⟨S65536x16x16, .f32⟩
  | 64 => ⟨S65536x16x16, .f32⟩
  | 65 => ⟨S65536x16x16, .f32⟩
  | 66 => ⟨S65536x256, .f32⟩
  | 67 => ⟨S65536x256, .f32⟩
  | 68 => ⟨S1x256, .f32⟩
  | 69 => ⟨S65536x256, .f32⟩
  | 70 => ⟨S65536x256, .f32⟩
  | 71 => ⟨S65536x256, .f32⟩
  | 72 => ⟨S65536x16x16, .f32⟩
  | 73 => ⟨S65536x16x16, .f32⟩
  | 74 => ⟨S65536x16x16, .f32⟩
  | 75 => ⟨S65536x256, .f32⟩
  | 76 => ⟨S65536x256, .f32⟩
  | 77 => ⟨S1x256, .f32⟩
  | 78 => ⟨S65536x256, .f32⟩
  | 79 => ⟨S65536x256, .f32⟩
  | 80 => ⟨S_, .f32⟩
  | 81 => ⟨S65536, .f32⟩
  | 82 => ⟨S_, .f32⟩
  | 83 => ⟨S65536, .f32⟩
  | 84 => ⟨S65536, .f32⟩
  | 85 => ⟨S65536x1, .f32⟩
  | 86 => ⟨S65536x256, .f32⟩
  | 87 => ⟨S65536x256, .f32⟩
  | 88 => ⟨S65536x256, .f32⟩
  | 89 => ⟨S_, .f32⟩
  | 90 => ⟨S65536, .f32⟩
  | 91 => ⟨S65536x1, .f32⟩
  | 92 => ⟨S65536x256, .f32⟩
  | 93 => ⟨S65536x256, .f32⟩
  | 94 => ⟨S65536x16x16, .f32⟩
  | 95 => ⟨S65536x1x1, .f32⟩
  | 96 => ⟨S65536x16x16, .f32⟩
  | 97 => ⟨S65536x16x16, .f32⟩
  | 98 => ⟨S1x256, .f32⟩
  | 99 => ⟨S65536x256, .f32⟩
  | 100 => ⟨S65536x1, .f32⟩
  | 101 => ⟨S65536x257, .f32⟩
  | 102 => ⟨S65536x257, .f32⟩
  | 103 => ⟨S1x257, .f32⟩
  | 104 => ⟨S65536x257, .f32⟩
  | 105 => ⟨S65536x257, .f32⟩
  | 106 => ⟨S_, .f32⟩
  | 107 => ⟨S65536x257, .f32⟩
  | 108 => ⟨S65536x257, .f32⟩
  | 109 => ⟨S65536x256, .f32⟩
  | 110 => ⟨S1x256, .f32⟩
  | 111 => ⟨S65536x256, .f32⟩
  | 112 => ⟨S65536x256, .f32⟩
  | 113 => ⟨S_, .f32⟩
  | 114 => ⟨S65536, .f32⟩
  | 115 => ⟨S_, .f32⟩
  | 116 => ⟨S65536, .f32⟩
  | 117 => ⟨S65536, .f32⟩
  | 118 => ⟨S65536x1, .f32⟩
  | 119 => ⟨S65536x256, .f32⟩
  | 120 => ⟨S65536x256, .f32⟩
  | 121 => ⟨S65536x256, .f32⟩
  | 122 => ⟨S_, .f32⟩
  | 123 => ⟨S65536, .f32⟩
  | 124 => ⟨S65536x1, .f32⟩
  | 125 => ⟨S65536x256, .f32⟩
  | 126 => ⟨S65536x256, .f32⟩
  | 127 => ⟨S65536x16x16, .f32⟩
  | _ => ⟨S65536x16x16, .f32⟩

abbrev hbmTy0_1 (i : Nat) : BufTy := match i % 128 with
  | 0 => ⟨S65536x1x1, .f32⟩
  | 1 => ⟨S65536x16x16, .f32⟩
  | 2 => ⟨S65536x16x16, .f32⟩
  | 3 => ⟨S65536x16x16, .f32⟩
  | 4 => ⟨S65536x16x16, .f32⟩
  | 5 => ⟨S65536x256, .f32⟩
  | 6 => ⟨S65536x256, .f32⟩
  | 7 => ⟨S1x256, .f32⟩
  | 8 => ⟨S65536x256, .f32⟩
  | 9 => ⟨S65536x256, .f32⟩
  | 10 => ⟨S65536x256, .f32⟩
  | 11 => ⟨S65536x16x16, .f32⟩
  | 12 => ⟨S65536x16x16, .f32⟩
  | 13 => ⟨S65536x16x16, .f32⟩
  | 14 => ⟨S65536x256, .f32⟩
  | 15 => ⟨S65536x256, .f32⟩
  | 16 => ⟨S1x256, .f32⟩
  | 17 => ⟨S65536x256, .f32⟩
  | 18 => ⟨S65536x256, .f32⟩
  | 19 => ⟨S65536x256, .f32⟩
  | 20 => ⟨S65536x16x16, .f32⟩
  | 21 => ⟨S65536x16x16, .f32⟩
  | 22 => ⟨S65536x16x16, .f32⟩
  | 23 => ⟨S65536x256, .f32⟩
  | 24 => ⟨S65536x256, .f32⟩
  | 25 => ⟨S1x256, .f32⟩
  | 26 => ⟨S65536x256, .f32⟩
  | 27 => ⟨S65536x256, .f32⟩
  | 28 => ⟨S_, .f32⟩
  | 29 => ⟨S65536, .f32⟩
  | 30 => ⟨S_, .f32⟩
  | 31 => ⟨S65536, .f32⟩
  | 32 => ⟨S65536, .f32⟩
  | 33 => ⟨S65536x1, .f32⟩
  | 34 => ⟨S65536x256, .f32⟩
  | 35 => ⟨S65536x256, .f32⟩
  | 36 => ⟨S65536x256, .f32⟩
  | 37 => ⟨S_, .f32⟩
  | 38 => ⟨S65536, .f32⟩
  | 39 => ⟨S65536x1, .f32⟩
  | 40 => ⟨S65536x256, .f32⟩
  | 41 => ⟨S65536x256, .f32⟩
  | 42 => ⟨S65536x16x16, .f32⟩
  | 43 => ⟨S65536x16x16, .f32⟩
  | 44 => ⟨S65536x16x16, .f32⟩
  | 45 => ⟨S65536x16x16, .f32⟩
  | 46 => ⟨S1x16x16, .f32⟩
  | 47 => ⟨S65536x16x16, .f32⟩
  | 48 => ⟨S65536x16x16, .f32⟩
  | 49 => ⟨S65536x16x16, .f32⟩
  | _ => ⟨S65536x16x16, .f32⟩

abbrev hbmTy (i : Nat) : BufTy := match i / 128 with
  | 0 => hbmTy0_0 i
  | 1 => hbmTy0_1 i
  | _ => ⟨S65536x16x16, .f32⟩

abbrev bufTy : (tb : Table) → Fin (tcTables nBuf tb) → BufTy
  | .hbm, ⟨i, _⟩ => hbmTy i
  | _, _ => ⟨S65536x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_2 : Ref sig .tc := ⟨.hbm, 80, rfl⟩
abbrev main_v63 : Ref sig .tc := ⟨.hbm, 81, rfl⟩
abbrev main_cst_3 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_call0_cst : Ref sig .tc := ⟨.hbm, 106, rfl⟩
abbrev main_call0_v0 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_5 : Ref sig .tc := ⟨.hbm, 113, rfl⟩
abbrev main_v91 : Ref sig .tc := ⟨.hbm, 114, rfl⟩
abbrev main_cst_6 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_7 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_8 : Ref sig .tc := ⟨.hbm, 156, rfl⟩
abbrev main_v131 : Ref sig .tc := ⟨.hbm, 157, rfl⟩
abbrev main_cst_9 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_10 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩

abbrev nD : Nat := 1
abbrev τ : Topo := Topo.v7x

variable {F : FTy → Type} [FloatOps F]

class Facts₀ : Prop where
  bcast_S16x16_S1x16x16_1_2 : S16x16.BroadcastsInDim S1x16x16 (![1, 2] : Fin 2 → Fin S1x16x16.rank)
  bcast_S1x16x16_S65536x16x16_0_1_2 : S1x16x16.BroadcastsInDim S65536x16x16 (![0, 1, 2] : Fin 3 → Fin S65536x16x16.rank)
  bcast_S_S65536 : S_.BroadcastsInDim S65536 (![] : Fin 0 → Fin S65536.rank)
  bcast_S65536_S65536x1x1_0 : S65536.BroadcastsInDim S65536x1x1 (![0] : Fin 1 → Fin S65536x1x1.rank)
  bcast_S65536x1x1_S65536x16x16_0_1_2 : S65536x1x1.BroadcastsInDim S65536x16x16 (![0, 1, 2] : Fin 3 → Fin S65536x16x16.rank)
  shapeCasts_S65536x16x16_S65536x256 : S65536x16x16.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x16x16 : S65536x256.ShapeCasts S65536x16x16
  bcast_S_S65536x256 : S_.BroadcastsInDim S65536x256 (![] : Fin 0 → Fin S65536x256.rank)
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  shapeCasts_S16x16_S1x256 : S16x16.ShapeCasts S1x256
  concatenates_S65536x256_S65536x1_S65536x257_d1 : Shape.Concatenates [S65536x256, S65536x1] S65536x257 1
  bcast_S257_S1x257_1 : S257.BroadcastsInDim S1x257 (![1] : Fin 1 → Fin S1x257.rank)
  bcast_S1x257_S65536x257_0_1 : S1x257.BroadcastsInDim S65536x257 (![0, 1] : Fin 2 → Fin S65536x257.rank)
  bcast_S_S65536x257 : S_.BroadcastsInDim S65536x257 (![] : Fin 0 → Fin S65536x257.rank)
  dot_S65536x256_S256x256_S65536x256_1_0_0_1_n_n_wf : DotDims.WF S65536x256 S256x256 S65536x256 [1] [0] [0] [1] [] []
  dot_S65536x257_S257x257_S65536x257_1_0_0_1_n_n_wf : DotDims.WF S65536x257 S257x257 S65536x257 [1] [0] [0] [1] [] []
  dot_S65536x257_S257x256_S65536x256_1_0_0_1_n_n_wf : DotDims.WF S65536x257 S257x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x257_S257x257_S65536x257_1_0_0_1_n_n : DotDims S65536x257 S257x257 S65536x257 where
  lhsContracting := [1]
  rhsContracting := [0]
  lhsNonContracting := [0]
  rhsNonContracting := [1]
  lhsBatch := []
  rhsBatch := []
  wf := dot_S65536x257_S257x257_S65536x257_1_0_0_1_n_n_wf
def dot_S65536x257_S257x256_S65536x256_1_0_0_1_n_n : DotDims S65536x257 S257x256 S65536x256 where
  lhsContracting := [1]
  rhsContracting := [0]
  lhsNonContracting := [0]
  rhsNonContracting := [1]
  lhsBatch := []
  rhsBatch := []
  wf := dot_S65536x257_S257x256_S65536x256_1_0_0_1_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibRowExpand.lean ====
/-
  A matrix repeated along a new trailing axis and flattened, read at an index written by coordinates.

  A matrix `[a, b]` viewed as `[a, b, 1]`; an array `[a, b, 1]` repeated along its unit axis to `[a, b, c]`; an array
  `[a, b, c]` with its last two axes folded into one of extent `w = b * c` (entry `(i, j, k)` lands in column
  `j * c + k`), and the same fold undone; and the three composed: every entry `(i, j * c + k)` of the expanded
  matrix is entry `(i, j)` of the matrix it was made from. Each holds for any element type and any extents.
-/
import Idealize.ShloMosaic.Lib.Pipeline.Value
import Idealize.ShloMosaic.Lib.ValueIdx

namespace Cert.LibRowExpand

open Idealize.ShloMosaic Idealize.ShloMosaic.ValueIdx

variable {α : Type}

/-- A matrix `[a, b]` cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` repeated along its last axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[a, b, c]` with its last two axes folded into one of extent `w = b * c`: column `q = j * c + k` of row `i`
    is entry `(i, j, k)`. -/
theorem shapeCast_abc_aw_apply {a b c w : ℕ} (x : (⟨3, ![a, b, c]⟩ : Shape).Idx → α)
    (h : (⟨3, ![a, b, c]⟩ : Shape).ShapeCasts ⟨2, ![a, w]⟩) (hw : w = b * c)
    (i : Fin a) (j : Fin b) (k : Fin c) (q : Fin w) (hq : q.val = j.val * c + k.val) :
    shapeCast ⟨2, ![a, w]⟩ x h (ix2 i q) = x (ix3 i j k) :=
  shapeCast_apply x h _ _ (by
    rw [Shape.rowMajor_val_three, Shape.rowMajor_val_two]
    show (i.val * b + j.val) * c + k.val = i.val * w + q.val
    rw [hq, hw, Nat.add_mul, Nat.mul_assoc, Nat.add_assoc])

/-- The fold undone: a matrix `[a, w]` with `w = b * c` cast to `[a, b, c]` reads, at `(i, j, k)`, column `j * c + k` of
    row `i`. -/
theorem shapeCast_aw_abc_apply {a b c w : ℕ} (x : (⟨2, ![a, w]⟩ : Shape).Idx → α)
    (h : (⟨2, ![a, w]⟩ : Shape).ShapeCasts ⟨3, ![a, b, c]⟩) (hw : w = b * c)
    (i : Fin a) (j : Fin b) (k : Fin c) (q : Fin w) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * w + q.val = (i.val * b + j.val) * c + k.val
    rw [hq, hw, Nat.add_mul, Nat.mul_assoc, Nat.add_assoc])

/-- A matrix `[a, b]` expanded to `[a, b * c]` by repeating each entry `c` times along its row (viewed `[a, b, 1]`,
    repeated to `[a, b, c]`, folded to `[a, w]`; the two casts to the same shape in between change nothing): entry
    `(i, j * c + k)` of the expansion is entry `(i, j)` of the matrix. -/
theorem expand_cols_apply {a b c w : ℕ} (v : (⟨2, ![a, b]⟩ : Shape).Idx → α)
    (h0 : (⟨2, ![a, b]⟩ : Shape).ShapeCasts ⟨2, ![a, b]⟩)
    (h1 : (⟨2, ![a, b]⟩ : Shape).ShapeCasts ⟨3, ![a, b, 1]⟩)
    (h2 : (⟨3, ![a, b, 1]⟩ : Shape).ShapeCasts ⟨3, ![a, b, 1]⟩)
    (h3 : (⟨3, ![a, b, 1]⟩ : Shape).Broadcasts ⟨3, ![a, b, c]⟩)
    (h4 : (⟨3, ![a, b, c]⟩ : Shape).ShapeCasts ⟨2, ![a, w]⟩) (hw : w = b * c)
    (i : Fin a) (j : Fin b) (k : Fin c) (q : Fin w) (hq : q.val = j.val * c + k.val) :
    shapeCast ⟨2, ![a, w]⟩ (broadcastTo ⟨3, ![a, b, c]⟩ (shapeCast ⟨3, ![a, b, 1]⟩ (shapeCast ⟨3, ![a, b, 1]⟩
      (shapeCast ⟨2, ![a, b]⟩ v h0) h1) h2) h3) h4 (ix2 i q) = v (ix2 i j) :=
  (shapeCast_abc_aw_apply _ h4 hw i j k q hq).trans <|
    (broadcastTo_ab1_abc_apply _ h3 i j k).trans <|
      (congrFun (shapeCast_self _ h2) _).trans <|
        (shapeCast_ab_ab1_apply _ h1 i j 0).trans <|
          congrFun (shapeCast_self v h0) _

end Cert.LibRowExpand
-- ==== Proof.LibAttn.lean ====
/-
  Layout and row lemmas for attention bodies on the extended reals, read at coordinates.

  A bias row stored as `[1, 1, 1, b]` and laid as the one row `[1, b]`; the two matrix-product records of an
  attention body (rows with rows, rows with columns) read at their free coordinates; and one row of scores turned
  into attention weights: the row's maximum from `-∞`, the exponentials of the differences, their sum, the quotients.
-/
import Idealize.ShloMosaic.Lib.Pipeline.Value
import Idealize.ShloMosaic.Lib.ValueIdx
import Idealize.ShloMosaic.Lib.ValueLayout
import Idealize.ShloMosaic.PureOps.Ideal.Laws
import proofs.«127483_j85478439125664_1_alg».proof.Proof.LibLayout

namespace Cert.LibAttn

open Idealize.ShloMosaic Idealize.ShloMosaic.ValueIdx

variable {α : Type}

/-- A `[1, 1, 1, b]` array cast to the one row `[1, b]` reads, at `(u, k)`, the operand at `(0, 0, 0, k)`. -/
theorem shapeCast_111b_1b_apply {b : ℕ} (x : (⟨4, ![1, 1, 1, b]⟩ : Shape).Idx → α)
    (h : (⟨4, ![1, 1, 1, b]⟩ : Shape).ShapeCasts ⟨2, ![1, b]⟩) (u : Fin 1) (k : Fin b) :
    shapeCast ⟨2, ![1, b]⟩ x h (ix2 u k) = x (ix4 (0 : Fin 1) (0 : Fin 1) (0 : Fin 1) k) :=
  shapeCast_apply x h _ _ (by
    have hu : u.val = 0 := by omega
    rw [Shape.rowMajor_val_four, Shape.rowMajor_val_two]
    show ((0 * 1 + 0) * 1 + 0) * b + k.val = u.val * b + k.val
    rw [hu])

/-! ## One row of scores turned into attention weights -/

/-- The row's maximum, folded from `-∞`. -/
noncomputable def rowMax {T : ℕ} (sc : Fin T → EReal) : EReal :=
  (Finset.univ : Finset (Fin T)).fold max (Ideal.ofBits .f32 0xFF800000#32) sc

/-- The exponential of a score's distance below the row's maximum. -/
noncomputable def rowExp {T : ℕ} (sc : Fin T → EReal) (t : Fin T) : EReal := Ideal.exp (sc t - rowMax sc)

/-- A score's weight: its exponential over the sum of the row's exponentials. -/
noncomputable def rowWeight {T : ℕ} (sc : Fin T → EReal) (t : Fin T) : EReal :=
  Ideal.div (rowExp sc t) (∑ u : Fin T, rowExp sc u)

/-- The weighted sum of a column of values by a row's weights. -/
noncomputable def rowAttn {T : ℕ} (sc vals : Fin T → EReal) : EReal := ∑ t : Fin T, rowWeight sc t * vals t

section Kernel

variable {a T : ℕ} (S : FVec Ideal ⟨2, ![a, T]⟩ .f32)
  (hred : (⟨2, ![a, T]⟩ : Shape).Reduces [1] ⟨1, ![a]⟩) (hφ : FKind.Formats FTy.f32)
  (hm : (0xFF800000#32 : BitVec 32) = 0xFF800000#32) (hz : (0x00000000#32 : BitVec 32) = 0x00000000#32)
  (hc : (⟨1, ![a]⟩ : Shape).ShapeCasts ⟨2, ![a, 1]⟩) (hb : (⟨2, ![a, 1]⟩ : Shape).Broadcasts ⟨2, ![a, T]⟩)

/-- A vector `[a]` stood up as a column and repeated along the rows of `[a, T]` reads, at `(s, t)`, its entry `s`. -/
theorem column_apply (v : (⟨1, ![a]⟩ : Shape).Idx → EReal) (s : Fin a) (t : Fin T) :
    broadcastTo ⟨2, ![a, T]⟩ (shapeCast ⟨2, ![a, 1]⟩ v hc) hb (ix2 s t) = v (ix1 s) :=
  (Cert.LibLayout.broadcastTo_a1_ab_apply _ hb s t).trans (Cert.LibLayout.shapeCast_a_a1_apply v hc s 0)

/-- The matrix of exponentials of each score's distance below its row's maximum, as a vector body computes it:
    the maximum over the second axis from `-∞`, stood up as a column, repeated along the rows, subtracted, exponentiated. -/
noncomputable def expShift : FVec Ideal ⟨2, ![a, T]⟩ .f32 :=
  exp (subf S (broadcastTo ⟨2, ![a, T]⟩ (shapeCast ⟨2, ![a, 1]⟩
    (multiReduction .maximumf [1] ⟨1, ![a]⟩ S 0xFF800000#32 hred hφ hm) hc) hb))

theorem expShift_apply (s : Fin a) (t : Fin T) :
    expShift S hred hφ hm hc hb (ix2 s t) = rowExp (fun u => S (ix2 s u)) t := by
  unfold expShift rowExp rowMax
  show Ideal.exp (S (ix2 s t) - broadcastTo ⟨2, ![a, T]⟩ (shapeCast ⟨2, ![a, 1]⟩
    (multiReduction .maximumf [1] ⟨1, ![a]⟩ S 0xFF800000#32 hred hφ hm) hc) hb (ix2 s t)) = _
  rw [column_apply hc hb _ s t, Cert.LibLayout.max_rows_apply S hred hφ hm s]

/-- The matrix of weights: each exponential over its row's sum (the sum over the second axis from zero, stood up as a
    column and repeated along the rows). -/
noncomputable def weights : FVec Ideal ⟨2, ![a, T]⟩ .f32 :=
  divf (expShift S hred hφ hm hc hb) (broadcastTo ⟨2, ![a, T]⟩ (shapeCast ⟨2, ![a, 1]⟩
    (multiReduction .add [1] ⟨1, ![a]⟩ (expShift S hred hφ hm hc hb) 0x00000000#32 hred hφ hz) hc) hb)

theorem weights_apply (s : Fin a) (t : Fin T) :
    weights S hred hφ hm hz hc hb (ix2 s t) = rowWeight (fun u => S (ix2 s u)) t := by
  unfold weights rowWeight
  show Ideal.div (expShift S hred hφ hm hc hb (ix2 s t)) (broadcastTo ⟨2, ![a, T]⟩ (shapeCast ⟨2, ![a, 1]⟩
    (multiReduction .add [1] ⟨1, ![a]⟩ (expShift S hred hφ hm hc hb) 0x00000000#32 hred hφ hz) hc) hb (ix2 s t)) = _
  rw [column_apply hc hb _ s t, Cert.LibLayout.sum_rows_apply _ hred hφ hz s, expShift_apply]
  exact congrArg _ (Finset.sum_congr rfl fun u _ => expShift_apply S hred hφ hm hc hb s u)

end Kernel

/-! ## The host's row maximum of a rank-3 array -/

/-- A host reduction with a maximum body over the last axis of a `[B, a, T]` array of extended reals, read at
    `(b, s)`: the fold of `max` from the initial value over the row `(b, s, ·)`. -/
theorem hostMax_rows3 {B a T : ℕ} (x : FVec Ideal ⟨3, ![B, a, T]⟩ .f32) {u : Shape} (init : u.Idx → EReal)
    (h' : (⟨3, ![B, a, T]⟩ : Shape).ReducesTo [2] ⟨2, ![B, a]⟩) (h : (⟨3, ![B, a, T]⟩ : Shape).Reduces [2] ⟨2, ![B, a]⟩)
    (hu : 0 < u.numel) (b : Fin B) (s : Fin a) :
    Host.reduce FloatOps.maximumf x init h' hu (ix2 b s)
      = (Finset.univ : Finset (Fin T)).fold max (init (Shape.Idx.first hu)) (fun w => x (ix3 b s w)) := by
  rw [Host.reduce_eq_fold_single FloatOps.maximumf x init h' h hu]
  refine congrArg (fun f => Finset.fold max (init (Shape.Idx.first hu)) f (Finset.univ : Finset (Fin T))) (funext fun w => ?_)
  exact congrArg x (funext fun ax => Fin.ext (by match ax with | ⟨0, _⟩ => rfl | ⟨1, _⟩ => rfl | ⟨2, _⟩ => rfl))

end Cert.LibAttn
-- ==== Proof.WaterBalance.lean ====
/-
  One step of a soil-water balance on the extended reals, one batch row at a time.

  A row carries 256 soil-water ratios x (a 16 × 16 grid laid flat), the grid's 256 water capacities wc, a
  precipitation pr and a potential evaporation pe.  The row's soil water is x ⊙ wc.  A *mixing head* with weights W and
  bias b applies three times "add the precipitation increment pr / 48 to every entry, then a dense layer", with tanh
  after the first two; what it returns here is the third layer's pre-activation.  Three heads are used: one ends in the
  logistic function (the new soil-water ratio), two end in a softmax over the 256 entries (the infiltration and the
  evaporation ratios).  The potential evaporation is spread over the grid by a softmax of a two-layer perceptron whose
  input is the row (wc, pe) of length 257: its first layer is Σ_{k<256} wc k · We1[k, j] + pe · We1[256, j] + be1 j,
  rectified.  The runoff is infiltration − evaporation − (new ratio − x) ⊙ wc.

  Everything is a function of one row and the weights: no entry of the result depends on another batch row.  That is
  what lets a computation tiled over blocks of rows agree with one over the whole batch.
-/
import Idealize.ShloMosaic.PureOps.Ideal
import Idealize.ShloMosaic.PureOps.Ideal.Laws
import proofs.«127483_j85478439125664_1_alg».proof.Proof.LibAttn

noncomputable section

namespace Cert.WaterBalance

open Idealize.ShloMosaic

/-! ## The constants the two programs spell -/

/-- The word of `48.0` denotes the real 48. -/
theorem ofBits_48 : Ideal.ofBits .f32 0x42400000#32 = ((48 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-- The precipitation increment of a row: its precipitation times 1/48. -/
def incr (pr : EReal) : EReal := pr * ((1 / 48 : ℝ) : EReal)

/-- Dividing by 48 is multiplying by 1/48, on every extended real. -/
theorem div48_eq_incr (pr : EReal) : Ideal.div pr (Ideal.ofBits .f32 0x42400000#32) = incr pr := by
  rw [ofBits_48, Ideal.div_coe (by norm_num : (48 : ℝ) ≠ 0)]; rfl

/-- The logistic function spelt with the word of `1.0` for its two ones. -/
theorem logistic_eq (h : EReal) :
    Ideal.div (Ideal.ofBits .f32 0x3F800000#32) (Ideal.ofBits .f32 0x3F800000#32 + Ideal.exp (-h)) = Ideal.logistic h := by
  rw [ofBits_one]; rfl

/-! ## One row -/

/-- A dense layer on one row: entry q is Σ_k x k · W[k, q] + b q. -/
def dense {K N : ℕ} (x : Fin K → EReal) (W : Fin K → Fin N → EReal) (b : Fin N → EReal) (q : Fin N) : EReal :=
  (∑ k : Fin K, x k * W k q) + b q

/-- One mixing step before its nonlinearity: the increment pp added to every entry, then a dense layer. -/
def mixPre {D : ℕ} (pp : EReal) (W : Fin D → Fin D → EReal) (b : Fin D → EReal) (x : Fin D → EReal) : Fin D → EReal :=
  dense (fun k => x k + pp) W b

/-- Three mixing steps, tanh after the first and the second: the third step's pre-activation. -/
def mix3 {D : ℕ} (pp : EReal) (W : Fin D → Fin D → EReal) (b : Fin D → EReal) (x : Fin D → EReal) : Fin D → EReal :=
  mixPre pp W b (fun k => Ideal.tanh (mixPre pp W b (fun j => Ideal.tanh (mixPre pp W b x j)) k))

/-- A softmax over a row: each entry's exponential below the row's maximum, over the sum of those exponentials. -/
abbrev softmax {T : ℕ} (h : Fin T → EReal) (t : Fin T) : EReal := Cert.LibAttn.rowWeight h t

/-- The perceptron's hidden layer on the row (wc, pe): the 256 capacities against the first 256 rows of We1, pe against
    its last row, the bias, and the maximum with zero (spelt with the zero word, which is never evaluated). -/
def hidden (wc : Fin 256 → EReal) (pe : EReal) (We1 : Fin 257 → Fin 257 → EReal) (be1 : Fin 257 → EReal) (j : Fin 257) : EReal :=
  max (((∑ k : Fin 256, wc k * We1 k.castSucc j) + pe * We1 (Fin.last 256) j) + be1 j) (Ideal.ofBits .f32 0x00000000#32)

/-- The weights of the step: three mixing heads and the perceptron. -/
structure Weights where
  Wwr : Fin 256 → Fin 256 → EReal
  bwr : Fin 256 → EReal
  Winf : Fin 256 → Fin 256 → EReal
  binf : Fin 256 → EReal
  Wev : Fin 256 → Fin 256 → EReal
  bev : Fin 256 → EReal
  We1 : Fin 257 → Fin 257 → EReal
  be1 : Fin 257 → EReal
  We2 : Fin 257 → Fin 256 → EReal
  be2 : Fin 256 → EReal

/-- The new soil-water ratio of a row. -/
def ratio (ω : Weights) (x wc : Fin 256 → EReal) (pr : EReal) (q : Fin 256) : EReal :=
  Ideal.logistic (mix3 (incr pr) ω.Wwr ω.bwr (fun k => x k * wc k) q)

/-- The infiltration of a row. -/
def infiltration (ω : Weights) (x wc : Fin 256 → EReal) (pr : EReal) (q : Fin 256) : EReal :=
  softmax (mix3 (incr pr) ω.Winf ω.binf (fun k => x k * wc k)) q * pr

/-- The potential evaporation spread over the grid. -/
def potential (ω : Weights) (wc : Fin 256 → EReal) (pe : EReal) (q : Fin 256) : EReal :=
  softmax (dense (hidden wc pe ω.We1 ω.be1) ω.We2 ω.be2) q * pe

/-- The evaporation of a row. -/
def evaporation (ω : Weights) (x wc : Fin 256 → EReal) (pr pe : EReal) (q : Fin 256) : EReal :=
  softmax (mix3 (incr pr) ω.Wev ω.bev (fun k => x k * wc k)) q * potential ω wc pe q

/-- The runoff of a row. -/
def runoff (ω : Weights) (x wc : Fin 256 → EReal) (pr pe : EReal) (q : Fin 256) : EReal :=
  infiltration ω x wc pr q - evaporation ω x wc pr pe q - (ratio ω x wc pr q - x q) * wc q

end Cert.WaterBalance

end
-- ==== Proof.BlockLayers.lean ====
/-
  The pieces of the water-balance step as a vector unit spells them over a block of rows, read entry by entry on the
  extended reals.

  A dense layer over a block: the block's rows against the weight matrix into a zero accumulator, plus the bias row
  repeated down the block.  Entry (p, q) is Σ_k x[p, k] · W[k, q] + b[0, q]: only row p of the block enters.  A mixing
  layer first adds a per-row column to every entry of the row and narrows the sum to a shorter float format, which on
  the extended reals changes nothing.  The perceptron's hidden layer adds a row product, a column times a row, and a
  bias row, and takes the maximum with zero.
  All extents are variables; the product records' own facts are hypotheses.
-/
import Idealize.ShloMosaic.Lib.Pipeline.Value
import Idealize.ShloMosaic.Lib.ValueIdx
import Idealize.ShloMosaic.Lib.ValueLayout
import Idealize.ShloMosaic.PureOps.Ideal.Laws
import proofs.«127483_j85478439125664_1_alg».proof.Proof.LibLayout
import proofs.«127483_j85478439125664_1_alg».proof.Proof.WaterBalance

noncomputable section

namespace Cert.WaterBalance.Block

open Idealize.ShloMosaic Idealize.ShloMosaic.ValueIdx

section Dense

variable {M K N : ℕ} {φ₁ φ₂ : FTy} (d : DotDims ⟨2, ![M, K]⟩ ⟨2, ![K, N]⟩ ⟨2, ![M, N]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1

/-- A dense layer over a block of rows, at entry (p, q): the dense layer of row p. -/
theorem dense_entry (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (xr : Fin K → EReal)
    (hx : ∀ k, x (ix2 p k) = xr k) (q : Fin N) :
    addf (matmul d none x W (constant ⟨2, ![M, N]⟩ .f32 0x00000000#32)) (broadcastTo ⟨2, ![M, N]⟩ b hb) (ix2 p q)
      = dense xr (fun k j => W (ix2 k j)) (fun j => b (ix2 0 j)) q := by
  show matmul d none x W (constant ⟨2, ![M, N]⟩ .f32 0x00000000#32) (ix2 p q) + broadcastTo ⟨2, ![M, N]⟩ b hb (ix2 p q) = _
  rw [Cert.LibLayout.matmul_rows_cols_apply d hr hs hlc hrc hl0 hr1, broadcastTo_1b_ab_apply b hb p q]
  unfold dense
  exact congrArg (· + b (ix2 0 q)) (Finset.sum_congr rfl fun k _ => by rw [hx k])

/-- A mixing layer over a block of rows: the column pp added to every entry of its row, narrowed, then a dense layer. -/
theorem mix_entry (x : FVec Ideal ⟨2, ![M, K]⟩ .f32) (pp : FVec Ideal ⟨2, ![M, 1]⟩ .f32)
    (hp : (⟨2, ![M, 1]⟩ : Shape).Broadcasts ⟨2, ![M, K]⟩) (ht : FTy.bits .bf16 < FTy.bits .f32)
    (W : FVec Ideal ⟨2, ![K, N]⟩ φ₂) (b : FVec Ideal ⟨2, ![1, N]⟩ .f32)
    (hb : (⟨2, ![1, N]⟩ : Shape).Broadcasts ⟨2, ![M, N]⟩) (p : Fin M) (xr : Fin K → EReal)
    (hx : ∀ k, x (ix2 p k) = xr k) (q : Fin N) :
    addf (matmul d none (truncf .bf16 (addf x (broadcastTo ⟨2, ![M, K]⟩ pp hp)) ht) W
        (constant ⟨2, ![M, N]⟩ .f32 0x00000000#32)) (broadcastTo ⟨2, ![M, N]⟩ b hb) (ix2 p q)
      = dense (fun k => xr k + pp (ix2 p 0)) (fun k j => W (ix2 k j)) (fun j => b (ix2 0 j)) q :=
  dense_entry d hr hs hlc hrc hl0 hr1 _ W b hb p _ (fun k => by
    show x (ix2 p k) + broadcastTo ⟨2, ![M, K]⟩ pp hp (ix2 p k) = _
    rw [hx k, Cert.LibLayout.broadcastTo_a1_ab_apply pp hp p k]) q

end Dense

section Hidden

variable {M K N : ℕ} {φ₁ φ₂ : FTy} (d : DotDims ⟨2, ![1, K]⟩ ⟨2, ![K, N]⟩ ⟨2, ![1, N]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1

/-- The perceptron's hidden layer over a block: one row's product with a matrix repeated down the block, plus a column
    times a row, plus a bias row, rectified.  Entry (p, j) uses the column's entry of row p only. -/
theorem hidden_entry (wc : FVec Ideal ⟨2, ![1, K]⟩ φ₁) (Wt : FVec Ideal ⟨2, ![K, N]⟩ φ₂)
    (wl b1 : FVec Ideal ⟨2, ![1, N]⟩ .f32) (pe : FVec Ideal ⟨2, ![M, 1]⟩ .f32)
    (h1 : (⟨2, ![1, N]⟩ : Shape).Broadcasts ⟨2, ![M, N]⟩) (h2 : (⟨2, ![M, 1]⟩ : Shape).Broadcasts ⟨2, ![M, N]⟩)
    (p : Fin M) (j : Fin N) :
    maximumf (addf (addf (broadcastTo ⟨2, ![M, N]⟩ (matmul d none wc Wt (constant ⟨2, ![1, N]⟩ .f32 0x00000000#32)) h1)
          (mulf (broadcastTo ⟨2, ![M, N]⟩ pe h2) (broadcastTo ⟨2, ![M, N]⟩ wl h1)))
        (broadcastTo ⟨2, ![M, N]⟩ b1 h1))
      (broadcast ⟨2, ![M, N]⟩ (Scalar.ofBits (F := Ideal) .f32 0x00000000#32)) (ix2 p j)
      = max (((∑ k : Fin K, wc (ix2 0 k) * Wt (ix2 k j)) + pe (ix2 p 0) * wl (ix2 0 j)) + b1 (ix2 0 j))
          (Ideal.ofBits .f32 0x00000000#32) := by
  show max ((broadcastTo ⟨2, ![M, N]⟩ (matmul d none wc Wt (constant ⟨2, ![1, N]⟩ .f32 0x00000000#32)) h1 (ix2 p j)
      + broadcastTo ⟨2, ![M, N]⟩ pe h2 (ix2 p j) * broadcastTo ⟨2, ![M, N]⟩ wl h1 (ix2 p j))
      + broadcastTo ⟨2, ![M, N]⟩ b1 h1 (ix2 p j)) (Ideal.ofBits .f32 0x00000000#32) = _
  rw [broadcastTo_1b_ab_apply _ h1 p j, broadcastTo_1b_ab_apply wl h1 p j, broadcastTo_1b_ab_apply b1 h1 p j,
    Cert.LibLayout.broadcastTo_a1_ab_apply pe h2 p j,
    Cert.LibLayout.matmul_rows_cols_apply d hr hs hlc hrc hl0 hr1]

end Hidden

end Cert.WaterBalance.Block

end
-- ==== Proof.LibSoftmaxRows.lean ====
/-
  The softmax of every row of a matrix, as a vector unit spells it, read entry by entry on the extended reals.

  The chain is: the row maxima by a reduction over the second axis from -∞; their maximum with -∞ once more; the maxima
  stood up as a column and repeated along the rows; the difference; the exponential; the row sums by a reduction from
  zero, stood up and repeated likewise; the quotient.  The second maximum changes nothing, because a fold of max that
  starts from -∞ is already at least -∞ (no need to evaluate the word of -∞).  Entry (s, t) of the result is the softmax
  of row s at t: the exponential of the entry's distance below the row's maximum over the sum of the row's such
  exponentials.  All extents are variables; the reduction's and the layout operations' facts are hypotheses.
-/
import Idealize.ShloMosaic.Lib.Pipeline.Value
import Idealize.ShloMosaic.Lib.ValueIdx
import Idealize.ShloMosaic.PureOps.Ideal.Laws
import proofs.«127483_j85478439125664_1_alg».proof.Proof.LibLayout
import proofs.«127483_j85478439125664_1_alg».proof.Proof.LibAttn

noncomputable section

namespace Cert.LibSoftmaxRows

open Idealize.ShloMosaic Idealize.ShloMosaic.ValueIdx

section Rows

variable {a T : ℕ} (S : FVec Ideal ⟨2, ![a, T]⟩ .f32)
  (hred : (⟨2, ![a, T]⟩ : Shape).Reduces [1] ⟨1, ![a]⟩) (hφ : FKind.Formats FTy.f32)
  (hm : (0xFF800000#32 : BitVec 32) = 0xFF800000#32) (hz : (0x00000000#32 : BitVec 32) = 0x00000000#32)
  (hc : (⟨1, ![a]⟩ : Shape).ShapeCasts ⟨2, ![a, 1]⟩) (hb : (⟨2, ![a, 1]⟩ : Shape).Broadcasts ⟨2, ![a, T]⟩)

/-- The row maxima folded from -∞ are at least -∞: their maximum with -∞ is themselves. -/
theorem max_neg_inf_rows :
    maximumf (broadcast ⟨1, ![a]⟩ (Scalar.ofBits (F := Ideal) .f32 0xFF800000#32))
        (multiReduction .maximumf [1] ⟨1, ![a]⟩ S 0xFF800000#32 hred hφ hm)
      = multiReduction .maximumf [1] ⟨1, ![a]⟩ S 0xFF800000#32 hred hφ hm := by
  funext i
  obtain ⟨n, rfl⟩ : ∃ n : Fin a, i = ix1 n := ⟨i 0, eq_ix1 i⟩
  show max (Ideal.ofBits .f32 0xFF800000#32) (multiReduction .maximumf [1] ⟨1, ![a]⟩ S 0xFF800000#32 hred hφ hm (ix1 n)) = _
  rw [Cert.LibLayout.max_rows_apply S hred hφ hm n]
  exact max_eq_right ((Finset.le_fold_max _).2 (Or.inl le_rfl))

/-- The softmax chain at entry (s, t): the softmax of row s at t, given the row's entries. -/
theorem softmax_rows_apply (s : Fin a) (row : Fin T → EReal) (hS : ∀ u, S (ix2 s u) = row u) (t : Fin T) :
    divf (exp (subf S (broadcastTo ⟨2, ![a, T]⟩ (shapeCast ⟨2, ![a, 1]⟩
          (maximumf (broadcast ⟨1, ![a]⟩ (Scalar.ofBits (F := Ideal) .f32 0xFF800000#32))
            (multiReduction .maximumf [1] ⟨1, ![a]⟩ S 0xFF800000#32 hred hφ hm)) hc) hb)))
        (broadcastTo ⟨2, ![a, T]⟩ (shapeCast ⟨2, ![a, 1]⟩
          (multiReduction .add [1] ⟨1, ![a]⟩ (exp (subf S (broadcastTo ⟨2, ![a, T]⟩ (shapeCast ⟨2, ![a, 1]⟩
            (maximumf (broadcast ⟨1, ![a]⟩ (Scalar.ofBits (F := Ideal) .f32 0xFF800000#32))
              (multiReduction .maximumf [1] ⟨1, ![a]⟩ S 0xFF800000#32 hred hφ hm)) hc) hb)))
            0x00000000#32 hred hφ hz) hc) hb) (ix2 s t)
      = Cert.LibAttn.rowWeight row t := by
  rw [max_neg_inf_rows S hred hφ hm]
  exact (Cert.LibAttn.weights_apply S hred hφ hm hz hc hb s t).trans
    (congrArg (fun f => Cert.LibAttn.rowWeight f t) (funext hS))

end Rows

end Cert.LibSoftmaxRows

end
-- ==== Proof.Batch.lean ====
/-
  The water-balance step over the whole batch, as two arrays of the fourteen argument arrays.

  The soil-water ratios arrive as a 65536 × 16 × 16 array and the capacities as a 16 × 16 grid; a batch row's 256
  entries are its grid laid flat, cell (a, b) at position 16·a + b.  The weight matrices and bias vectors are read
  entry by entry.  Result entry (P, a, b) is the row function of row P at position 16·a + b.
-/
import Idealize.ShloMosaic.Lib.ValueIdx
import proofs.«127483_j85478439125664_1_alg».proof.Proof.WaterBalance

noncomputable section

namespace Cert.WaterBalance

open Idealize.ShloMosaic Idealize.ShloMosaic.ValueIdx

/-- Grid cell (a, b) laid flat. -/
def cell (a b : Fin 16) : Fin 256 := ⟨a.val * 16 + b.val, by omega⟩
/-- The grid row of a flat position. -/
def hi (k : Fin 256) : Fin 16 := ⟨k.val / 16, by omega⟩
/-- The grid column of a flat position. -/
def lo (k : Fin 256) : Fin 16 := ⟨k.val % 16, by omega⟩

theorem cell_hi_lo (k : Fin 256) : cell (hi k) (lo k) = k := Fin.ext (by show k.val / 16 * 16 + k.val % 16 = k.val; omega)
theorem hi_cell (a b : Fin 16) : hi (cell a b) = a := Fin.ext (by show (a.val * 16 + b.val) / 16 = a.val; omega)
theorem lo_cell (a b : Fin 16) : lo (cell a b) = b := Fin.ext (by show (a.val * 16 + b.val) % 16 = b.val; omega)
theorem val_eq_hi_lo (k : Fin 256) : k.val = (hi k).val * 16 + (lo k).val := by
  show k.val = k.val / 16 * 16 + k.val % 16; omega

/-- Batch row P of the ratios, laid flat. -/
def rowOf (X : (⟨3, ![65536, 16, 16]⟩ : Shape).Idx → EReal) (P : Fin 65536) (k : Fin 256) : EReal := X (ix3 P (hi k) (lo k))
/-- The capacities, laid flat. -/
def capOf (C : (⟨2, ![16, 16]⟩ : Shape).Idx → EReal) (k : Fin 256) : EReal := C (ix2 (hi k) (lo k))
/-- A matrix read entry by entry. -/
def matOf {K N : ℕ} (W : (⟨2, ![K, N]⟩ : Shape).Idx → EReal) (k : Fin K) (j : Fin N) : EReal := W (ix2 k j)
/-- A vector read entry by entry. -/
def vecOf {N : ℕ} (b : (⟨1, ![N]⟩ : Shape).Idx → EReal) (j : Fin N) : EReal := b (ix1 j)

/-- The step's weights read off the ten weight arrays. -/
def weightsOf (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![257, 257]⟩ : Shape).Idx → EReal) (a11 : (⟨1, ![257]⟩ : Shape).Idx → EReal)
    (a12 : (⟨2, ![257, 256]⟩ : Shape).Idx → EReal) (a13 : (⟨1, ![256]⟩ : Shape).Idx → EReal) : Weights where
  Wwr := matOf a4
  bwr := vecOf a5
  Winf := matOf a6
  binf := vecOf a7
  Wev := matOf a8
  bev := vecOf a9
  We1 := matOf a10
  be1 := vecOf a11
  We2 := matOf a12
  be2 := vecOf a13

/-- The new soil-water ratios of the whole batch. -/
def ratioArr (a0 : (⟨3, ![65536, 16, 16]⟩ : Shape).Idx → EReal) (a1 : (⟨1, ![65536]⟩ : Shape).Idx → EReal)
    (a3 : (⟨2, ![16, 16]⟩ : Shape).Idx → EReal) (ω : Weights) : (⟨3, ![65536, 16, 16]⟩ : Shape).Idx → EReal :=
  fun i => ratio ω (rowOf a0 (i 0)) (capOf a3) (a1 (ix1 (i 0))) (cell (i 1) (i 2))

/-- The runoff of the whole batch. -/
def runoffArr (a0 : (⟨3, ![65536, 16, 16]⟩ : Shape).Idx → EReal) (a1 a2 : (⟨1, ![65536]⟩ : Shape).Idx → EReal)
    (a3 : (⟨2, ![16, 16]⟩ : Shape).Idx → EReal) (ω : Weights) : (⟨3, ![65536, 16, 16]⟩ : Shape).Idx → EReal :=
  fun i => runoff ω (rowOf a0 (i 0)) (capOf a3) (a1 (ix1 (i 0))) (a2 (ix1 (i 0))) (cell (i 1) (i 2))

end Cert.WaterBalance

end
-- ==== Proof.KernelRow.lean ====
/-
  The kernel body's two stores over a block of 1024 batch rows, read entry by entry on the extended reals.

  The body loads the block of ratios x, the block's precipitation and potential-evaporation columns, the capacities wc as
  one row, and the weights whole; every intermediate is a 1024 × 256 (or 1024 × 257) matrix whose row p is a function of
  row p of x, of the two columns' entries of row p, and of the weights.  Here each printed payload is first recognised as a
  composition of a few block-level pieces (a mixing layer, a three-layer head, the softmax chain), and then read at
  (p, q) as the corresponding row function of the specification.  The capacity row is multiplied in as x[p, k] · wc[0, k];
  the named constant is the rational 1/48; narrowing to a shorter float format is the identity.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import proofs.«127483_j85478439125664_1_alg».proof.Proof.Gen.KernelIdeal.Frame
import proofs.«127483_j85478439125664_1_alg».proof.Proof.BlockLayers
import proofs.«127483_j85478439125664_1_alg».proof.Proof.LibSoftmaxRows
import proofs.«127483_j85478439125664_1_alg».proof.Proof.Batch

set_option maxRecDepth 16384

noncomputable section

namespace Cert.WaterBalance.Kernel

open Idealize.ShloMosaic Idealize.ShloMosaic.ValueIdx
open Cert.KernelIdeal Cert.KernelIdeal.Gen

/-- The body's named constant denotes the rational 1/48. -/
theorem inv_48 : Named.named (F := Ideal) κ "inv_48" (φ := .f32) 0x3CAAAAAB#32 = ((1 / 48 : ℝ) : EReal) :=
  IdealRules.named_const.ideal_named_scalar _ _ _ _ rfl

/-! ## The block-level pieces -/

/-- A dense layer of the block on an input already narrowed. -/
def denseB (xb : FVec Ideal S1024x256 .bf16) (W : FVec Ideal S256x256 .bf16) (b : FVec Ideal S1x256 .f32) :
    FVec Ideal S1024x256 .f32 :=
  addf (matmul dot_S1024x256_S256x256_S1024x256_1_0_0_1_n_n none xb W (constant S1024x256 .f32 0x00000000#32))
    (broadcastTo S1024x256 b broadcasts_S1x256_S1024x256)

/-- A mixing layer of the block: the increment column added along the rows, narrowed, then the dense layer. -/
def layer (x : FVec Ideal S1024x256 .f32) (pp : FVec Ideal S1024x1 .f32) (W : FVec Ideal S256x256 .bf16)
    (b : FVec Ideal S1x256 .f32) : FVec Ideal S1024x256 .f32 :=
  denseB (truncf .bf16 (addf x (broadcastTo S1024x256 pp broadcasts_S1024x1_S1024x256)) bitsLt_bf16_f32) W b

/-- Three mixing layers, tanh after the first two. -/
def head3 (x : FVec Ideal S1024x256 .f32) (pp : FVec Ideal S1024x1 .f32) (W : FVec Ideal S256x256 .bf16)
    (b : FVec Ideal S1x256 .f32) : FVec Ideal S1024x256 .f32 :=
  layer (tanh (layer (tanh (layer x pp W b)) pp W b)) pp W b

/-- The softmax chain of the block. -/
def smax (h : FVec Ideal S1024x256 .f32) : FVec Ideal S1024x256 .f32 :=
  divf (exp (subf h (broadcastTo S1024x256 (shapeCast S1024x1
        (maximumf (broadcast S1024 (Scalar.ofBits (F := Ideal) .f32 0xFF800000#32))
          (multiReduction .maximumf [1] S1024 h 0xFF800000#32 reduces_S1024x256_S1024 (.inl rfl) rfl))
        shapeCasts_S1024_S1024x1) broadcasts_S1024x1_S1024x256)))
    (broadcastTo S1024x256 (shapeCast S1024x1
      (multiReduction .add [1] S1024 (exp (subf h (broadcastTo S1024x256 (shapeCast S1024x1
          (maximumf (broadcast S1024 (Scalar.ofBits (F := Ideal) .f32 0xFF800000#32))
            (multiReduction .maximumf [1] S1024 h 0xFF800000#32 reduces_S1024x256_S1024 (.inl rfl) rfl))
          shapeCasts_S1024_S1024x1) broadcasts_S1024x1_S1024x256)))
        0x00000000#32 reduces_S1024x256_S1024 (.inl rfl) rfl)
      shapeCasts_S1024_S1024x1) broadcasts_S1024x1_S1024x256)

theorem denseB_entry (xb : FVec Ideal S1024x256 .bf16) (W : FVec Ideal S256x256 .bf16) (b : FVec Ideal S1x256 .f32)
    (p : Fin 1024) (xr : Fin 256 → EReal) (hx : ∀ k, xb (ix2 p k) = xr k) (q : Fin 256) :
    denseB xb W b (ix2 p q) = dense xr (fun k j => W (ix2 k j)) (fun j => b (ix2 0 j)) q :=
  Cert.WaterBalance.Block.dense_entry dot_S1024x256_S256x256_S1024x256_1_0_0_1_n_n rfl rfl rfl rfl
    (fun _ _ => rfl) (fun _ _ => rfl) xb W b broadcasts_S1x256_S1024x256 p xr hx q

theorem layer_entry (x : FVec Ideal S1024x256 .f32) (pp : FVec Ideal S1024x1 .f32) (W : FVec Ideal S256x256 .bf16)
    (b : FVec Ideal S1x256 .f32) (p : Fin 1024) (xr : Fin 256 → EReal) (hx : ∀ k, x (ix2 p k) = xr k) (q : Fin 256) :
    layer x pp W b (ix2 p q) = mixPre (pp (ix2 p 0)) (fun k j => W (ix2 k j)) (fun j => b (ix2 0 j)) xr q :=
  Cert.WaterBalance.Block.mix_entry dot_S1024x256_S256x256_S1024x256_1_0_0_1_n_n rfl rfl rfl rfl
    (fun _ _ => rfl) (fun _ _ => rfl) x pp broadcasts_S1024x1_S1024x256 bitsLt_bf16_f32 W b
    broadcasts_S1x256_S1024x256 p xr hx q

theorem head3_entry (x : FVec Ideal S1024x256 .f32) (pp : FVec Ideal S1024x1 .f32) (W : FVec Ideal S256x256 .bf16)
    (b : FVec Ideal S1x256 .f32) (p : Fin 1024) (xr : Fin 256 → EReal) (hx : ∀ k, x (ix2 p k) = xr k) (q : Fin 256) :
    head3 x pp W b (ix2 p q) = mix3 (pp (ix2 p 0)) (fun k j => W (ix2 k j)) (fun j => b (ix2 0 j)) xr q :=
  layer_entry _ pp W b p _ (fun k => congrArg Ideal.tanh
    (layer_entry _ pp W b p _ (fun j => congrArg Ideal.tanh (layer_entry x pp W b p xr hx j)) k)) q

theorem smax_entry (h : FVec Ideal S1024x256 .f32) (p : Fin 1024) (row : Fin 256 → EReal)
    (hh : ∀ k, h (ix2 p k) = row k) (q : Fin 256) : smax h (ix2 p q) = softmax row q :=
  Cert.LibSoftmaxRows.softmax_rows_apply h reduces_S1024x256_S1024 (.inl rfl) rfl rfl shapeCasts_S1024_S1024x1
    broadcasts_S1024x1_S1024x256 p row hh q

/-! ## The printed payloads as compositions of the pieces, and their entries -/

/-- The row's soil water: ratio times capacity. -/
theorem soilWater_entry (v0 : Vec Ideal S1024x256 .f32) (v6 : Vec Ideal S1x256 .f32) (p : Fin 1024) (k : Fin 256) :
    k0_pay6 (F := Ideal) v0 v6 (ix2 p k) = v0 (ix2 p k) * v6 (ix2 0 k) := by
  show shapeCast S1024x256 v0 shapeCasts_S1024x256_S1024x256 (ix2 p k)
      * broadcastTo S1024x256 (shapeCast S1x256 v6 shapeCasts_S1x256_S1x256) broadcasts_S1x256_S1024x256 (ix2 p k) = _
  rw [shapeCast_self, broadcastTo_1b_ab_apply, shapeCast_self]

/-- The row's precipitation increment: the precipitation times the named 1/48. -/
theorem incr_entry (v2 : Vec Ideal S1024x1 .f32) (p : Fin 1024) :
    k0_pay7 (F := Ideal) v2 (ix2 p 0) = incr (v2 (ix2 p 0)) := by
  show shapeCast S1024x1 v2 shapeCasts_S1024x1_S1024x1 (ix2 p 0)
      * Named.named (F := Ideal) κ "inv_48" (φ := .f32) 0x3CAAAAAB#32 = _
  rw [shapeCast_self, inv_48]; rfl

theorem pay8_eq (v0 : Vec Ideal S1024x256 .f32) (v2 : Vec Ideal S1024x1 .f32) (v6 : Vec Ideal S1x256 .f32)
    (v12 : Vec Ideal S256x256 .f32) (v14 : Vec Ideal S1x256 .f32) :
    k0_pay8 (F := Ideal) v0 v2 v6 v12 v14
      = logistic (head3 (k0_pay6 v0 v6) (k0_pay7 v2) (truncf .bf16 v12 bitsLt_bf16_f32)
          (shapeCast S1x256 v14 shapeCasts_S1x256_S1x256)) := rfl

/-- The new ratio's payload at (p, q). -/
theorem ratio_pay (v0 : Vec Ideal S1024x256 .f32) (v2 : Vec Ideal S1024x1 .f32) (v6 : Vec Ideal S1x256 .f32)
    (v12 : Vec Ideal S256x256 .f32) (v14 : Vec Ideal S1x256 .f32) (p : Fin 1024) (q : Fin 256) :
    k0_pay8 (F := Ideal) v0 v2 v6 v12 v14 (ix2 p q)
      = Ideal.logistic (mix3 (incr (v2 (ix2 p 0))) (fun k j => v12 (ix2 k j)) (fun j => v14 (ix2 0 j))
          (fun k => v0 (ix2 p k) * v6 (ix2 0 k)) q) := by
  rw [pay8_eq]
  refine (congrArg Ideal.logistic (head3_entry _ _ _ _ p _ (soilWater_entry v0 v6 p) q)).trans ?_
  rw [incr_entry v2 p, shapeCast_self]
  rfl

theorem pay10_eq (v3 : FVec Ideal S1024x1 .f32) (v9 : FVec Ideal S1024x256 .f32) (v11 : FVec Ideal S1024x1 .f32)
    (v38 : FVec Ideal S256x256 .bf16) (v39 : Vec Ideal S1x256 .f32) :
    k0_pay10 (F := Ideal) v3 v9 v11 v38 v39
      = mulf (smax (head3 v9 v11 v38 (shapeCast S1x256 v39 shapeCasts_S1x256_S1x256)))
          (broadcastTo S1024x256 v3 broadcasts_S1024x1_S1024x256) := rfl

/-- The infiltration's payload at (p, q). -/
theorem infiltration_pay (v3 : FVec Ideal S1024x1 .f32) (v9 : FVec Ideal S1024x256 .f32) (v11 : FVec Ideal S1024x1 .f32)
    (v38 : FVec Ideal S256x256 .bf16) (v39 : Vec Ideal S1x256 .f32) (p : Fin 1024) (xr : Fin 256 → EReal)
    (hx : ∀ k, v9 (ix2 p k) = xr k) (q : Fin 256) :
    k0_pay10 (F := Ideal) v3 v9 v11 v38 v39 (ix2 p q)
      = softmax (mix3 (v11 (ix2 p 0)) (fun k j => v38 (ix2 k j)) (fun j => v39 (ix2 0 j)) xr) q * v3 (ix2 p 0) := by
  rw [pay10_eq]
  show smax _ (ix2 p q) * broadcastTo S1024x256 v3 broadcasts_S1024x1_S1024x256 (ix2 p q) = _
  rw [smax_entry _ p _ (fun k => head3_entry v9 v11 v38 _ p xr hx k) q,
    Cert.LibLayout.broadcastTo_a1_ab_apply v3 _ p q, shapeCast_self]

/-- The perceptron's hidden layer at (p, j), from the row product, the column times the last row, and the bias. -/
theorem hidden_pay (v5 : FVec Ideal S1024x1 .f32) (v7 : FVec Ideal S1x256 .f32) (v74 : Vec Ideal S256x257 .f32)
    (v75 : Vec Ideal S1x257 .f32) (v77 : FVec Ideal S1x257 .f32) (p : Fin 1024) (j : Fin 257) :
    maximumf (addf (k0_pay12 (F := Ideal) v5 v7 v74 v75) (broadcastTo S1024x257 v77 broadcasts_S1x257_S1024x257))
        (broadcast S1024x257 (Scalar.ofBits (F := Ideal) .f32 0x00000000#32)) (ix2 p j)
      = max (((∑ k : Fin 256, v7 (ix2 0 k) * v74 (ix2 k j)) + v5 (ix2 p 0) * v75 (ix2 0 j)) + v77 (ix2 0 j))
          (Ideal.ofBits .f32 0x00000000#32) :=
  Cert.WaterBalance.Block.hidden_entry dot_S1x256_S256x257_S1x257_1_0_0_1_n_n rfl rfl rfl rfl
    (fun _ _ => rfl) (fun _ _ => rfl) (truncf .bf16 v7 bitsLt_bf16_f32) (truncf .bf16 v74 bitsLt_bf16_f32) v75 v77 v5
    broadcasts_S1x257_S1024x257 broadcasts_S1024x1_S1024x257 p j

/-- The perceptron's second dense layer of the block. -/
def denseH (hb : FVec Ideal S1024x257 .bf16) (W : FVec Ideal S257x256 .bf16) (b : FVec Ideal S1x256 .f32) :
    FVec Ideal S1024x256 .f32 :=
  addf (matmul dot_S1024x257_S257x256_S1024x256_1_0_0_1_n_n none hb W (constant S1024x256 .f32 0x00000000#32))
    (broadcastTo S1024x256 b broadcasts_S1x256_S1024x256)

theorem denseH_entry (hb : FVec Ideal S1024x257 .bf16) (W : FVec Ideal S257x256 .bf16) (b : FVec Ideal S1x256 .f32)
    (p : Fin 1024) (hr : Fin 257 → EReal) (hx : ∀ k, hb (ix2 p k) = hr k) (q : Fin 256) :
    denseH hb W b (ix2 p q) = dense hr (fun k j => W (ix2 k j)) (fun j => b (ix2 0 j)) q :=
  Cert.WaterBalance.Block.dense_entry dot_S1024x257_S257x256_S1024x256_1_0_0_1_n_n rfl rfl rfl rfl
    (fun _ _ => rfl) (fun _ _ => rfl) hb W b broadcasts_S1x256_S1024x256 p hr hx q

theorem pay13_eq (v5 : FVec Ideal S1024x1 .f32) (v77 : FVec Ideal S1x257 .f32) (v85 : FVec Ideal S1024x257 .f32)
    (v90 : Vec Ideal S257x256 .f32) (v92 : Vec Ideal S1x256 .f32) :
    k0_pay13 (F := Ideal) v5 v77 v85 v90 v92
      = mulf (smax (denseH (truncf .bf16 (maximumf (addf v85 (broadcastTo S1024x257 v77 broadcasts_S1x257_S1024x257))
            (broadcast S1024x257 (Scalar.ofBits (F := Ideal) .f32 0x00000000#32))) bitsLt_bf16_f32)
          (truncf .bf16 v90 bitsLt_bf16_f32) (shapeCast S1x256 v92 shapeCasts_S1x256_S1x256)))
          (broadcastTo S1024x256 v5 broadcasts_S1024x1_S1024x256) := rfl

/-- The spread potential evaporation's payload at (p, q), given the hidden layer's row p. -/
theorem potential_pay (v5 : FVec Ideal S1024x1 .f32) (v77 : FVec Ideal S1x257 .f32) (v85 : FVec Ideal S1024x257 .f32)
    (v90 : Vec Ideal S257x256 .f32) (v92 : Vec Ideal S1x256 .f32) (p : Fin 1024) (hid : Fin 257 → EReal)
    (hh : ∀ j, maximumf (addf v85 (broadcastTo S1024x257 v77 broadcasts_S1x257_S1024x257))
        (broadcast S1024x257 (Scalar.ofBits (F := Ideal) .f32 0x00000000#32)) (ix2 p j) = hid j) (q : Fin 256) :
    k0_pay13 (F := Ideal) v5 v77 v85 v90 v92 (ix2 p q)
      = softmax (dense hid (fun k j => v90 (ix2 k j)) (fun j => v92 (ix2 0 j))) q * v5 (ix2 p 0) := by
  rw [pay13_eq]
  show smax _ (ix2 p q) * broadcastTo S1024x256 v5 broadcasts_S1024x1_S1024x256 (ix2 p q) = _
  rw [smax_entry _ p _ (fun k => denseH_entry (truncf .bf16 (maximumf (addf v85 (broadcastTo S1024x257 v77
      broadcasts_S1x257_S1024x257)) (broadcast S1024x257 (Scalar.ofBits (F := Ideal) .f32 0x00000000#32)))
      bitsLt_bf16_f32) _ _ p hid hh k) q,
    Cert.LibLayout.broadcastTo_a1_ab_apply v5 _ p q, shapeCast_self]
  rfl

theorem pay16_eq (v9 : FVec Ideal S1024x256 .f32) (v11 : FVec Ideal S1024x1 .f32) (v111 : Vec Ideal S256x256 .f32)
    (v113 : Vec Ideal S1x256 .f32) :
    k0_pay16 (F := Ideal) v9 v11 v111 v113
      = addf (tanh (layer (tanh (layer v9 v11 (k0_pay14 v111) (k0_pay15 v113))) v11 (k0_pay14 v111) (k0_pay15 v113)))
          (broadcastTo S1024x256 v11 broadcasts_S1024x1_S1024x256) := rfl

/-- The evaporation head after two layers, with the increment already added for the third, at (p, k). -/
theorem evapInput_pay (v9 : FVec Ideal S1024x256 .f32) (v11 : FVec Ideal S1024x1 .f32) (v111 : Vec Ideal S256x256 .f32)
    (v113 : Vec Ideal S1x256 .f32) (p : Fin 1024) (xr : Fin 256 → EReal) (hx : ∀ k, v9 (ix2 p k) = xr k) (k : Fin 256) :
    k0_pay16 (F := Ideal) v9 v11 v111 v113 (ix2 p k)
      = Ideal.tanh (mixPre (v11 (ix2 p 0)) (fun k j => v111 (ix2 k j)) (fun j => v113 (ix2 0 j))
          (fun j => Ideal.tanh (mixPre (v11 (ix2 p 0)) (fun k j => v111 (ix2 k j)) (fun j => v113 (ix2 0 j)) xr j)) k)
        + v11 (ix2 p 0) := by
  rw [pay16_eq]
  show Ideal.tanh (layer _ v11 _ _ (ix2 p k)) + broadcastTo S1024x256 v11 broadcasts_S1024x1_S1024x256 (ix2 p k) = _
  rw [layer_entry _ v11 _ _ p _ (fun j => congrArg Ideal.tanh (layer_entry v9 v11 _ _ p xr hx j)) k,
    Cert.LibLayout.broadcastTo_a1_ab_apply v11 _ p k]
  simp only [k0_pay14, k0_pay15, shapeCast_self]
  rfl

theorem pay1_eq (v1 : FVec Ideal S1024x256 .f32) (v7 : FVec Ideal S1x256 .f32) (v36 v73 v110 : FVec Ideal S1024x256 .f32)
    (v112 : FVec Ideal S256x256 .bf16) (v114 : FVec Ideal S1x256 .f32) (v130 : FVec Ideal S1024x256 .f32) :
    k0_pay1 (F := Ideal) v1 v7 v36 v73 v110 v112 v114 v130
      = subf (subf v73 (mulf (smax (denseB (truncf .bf16 v130 bitsLt_bf16_f32) v112 v114)) v110))
          (mulf (subf v36 v1) (broadcastTo S1024x256 v7 broadcasts_S1x256_S1024x256)) := rfl

/-- The runoff's payload at (p, q), from the entries of its operands and row p of the evaporation head's input. -/
theorem runoff_pay (v1 : FVec Ideal S1024x256 .f32) (v7 : FVec Ideal S1x256 .f32) (v36 v73 v110 : FVec Ideal S1024x256 .f32)
    (v112 : FVec Ideal S256x256 .bf16) (v114 : FVec Ideal S1x256 .f32) (v130 : FVec Ideal S1024x256 .f32)
    (p : Fin 1024) (yr : Fin 256 → EReal) (hy : ∀ k, v130 (ix2 p k) = yr k) (q : Fin 256) :
    k0_pay1 (F := Ideal) v1 v7 v36 v73 v110 v112 v114 v130 (ix2 p q)
      = (v73 (ix2 p q) - softmax (dense yr (fun k j => v112 (ix2 k j)) (fun j => v114 (ix2 0 j))) q * v110 (ix2 p q))
        - (v36 (ix2 p q) - v1 (ix2 p q)) * v7 (ix2 0 q) := by
  rw [pay1_eq]
  show (v73 (ix2 p q) - smax _ (ix2 p q) * v110 (ix2 p q))
      - (v36 (ix2 p q) - v1 (ix2 p q)) * broadcastTo S1024x256 v7 broadcasts_S1x256_S1024x256 (ix2 p q) = _
  rw [smax_entry _ p _ (fun k => denseB_entry (truncf .bf16 v130 bitsLt_bf16_f32) v112 v114 p yr hy k) q,
    broadcastTo_1b_ab_apply v7 _ p q]

/-! ## The two stores of the body -/

theorem zero_offsets : (![0, 0] : Fin 2 → Nat) = fun _ => 0 := funext fun a => by fin_cases a <;> rfl

/-- The first 256 rows of the perceptron's first weight matrix, loaded as a 256 × 257 piece. -/
theorem We1_top (x10 : Vec Ideal S257x257 .f32) (k : Fin 256) (j : Fin 257) :
    View.ld x10 r0_4 (ix2 k j) = x10 (ix2 k.castSucc j) := by
  show x10 (r0_4.emb (ix2 k j)) = _
  refine congrArg x10 (funext fun a => Fin.ext ?_)
  match a with
  | ⟨0, _⟩ => show 0 + 1 * k.val = k.val; omega
  | ⟨1, _⟩ => show 0 + 1 * j.val = j.val; omega

/-- Its last row, loaded as a 1 × 257 piece. -/
theorem We1_last (x10 : Vec Ideal S257x257 .f32) (j : Fin 257) :
    View.ld x10 r0_5 (ix2 0 j) = x10 (ix2 (Fin.last 256) j) := by
  show x10 (r0_5.emb (ix2 0 j)) = _
  refine congrArg x10 (funext fun a => Fin.ext ?_)
  match a with
  | ⟨0, _⟩ => show 256 + 1 * 0 = 256; rfl
  | ⟨1, _⟩ => show 0 + 1 * j.val = j.val; omega

/-- The casts of a load to its own shape change nothing. -/
theorem pay2_id (v : Vec Ideal S1024x256 .f32) : k0_pay2 (F := Ideal) v = v := shapeCast_self _ _
theorem pay3_id (v : Vec Ideal S1024x1 .f32) : k0_pay3 (F := Ideal) v = v := shapeCast_self _ _
theorem pay4_id (v : Vec Ideal S1024x1 .f32) : k0_pay4 (F := Ideal) v = v := shapeCast_self _ _
theorem pay5_id (v : Vec Ideal S1x256 .f32) : k0_pay5 (F := Ideal) v = v := shapeCast_self _ _
theorem pay11_id (v : Vec Ideal S1x257 .f32) : k0_pay11 (F := Ideal) v = v := shapeCast_self _ _
theorem pay15_id (v : Vec Ideal S1x256 .f32) : k0_pay15 (F := Ideal) v = v := shapeCast_self _ _

/-- The hidden layer over the two loaded pieces of the first weight matrix is the specification's hidden layer over the
    whole matrix: the 256 × 257 piece is its first 256 rows, the 1 × 257 piece its last row. -/
theorem hidden_eq (x2 : Vec Ideal S1024x1 .f32) (x3 : Vec Ideal S1x256 .f32) (x10 : Vec Ideal S257x257 .f32)
    (x11 : Vec Ideal S1x257 .f32) (p : Fin 1024) (j : Fin 257) :
    max (((∑ k : Fin 256, x3 (ix2 0 k) * View.ld x10 r0_4 (ix2 k j)) + x2 (ix2 p 0) * View.ld x10 r0_5 (ix2 0 j))
        + x11 (ix2 0 j)) (Ideal.ofBits .f32 0x00000000#32)
      = hidden (fun k => x3 (ix2 0 k)) (x2 (ix2 p 0)) (fun k j => x10 (ix2 k j)) (fun j => x11 (ix2 0 j)) j := by
  unfold hidden
  rw [We1_last x10 j, Finset.sum_congr rfl fun k _ => by rw [We1_top x10 k j]]

/-- The step's weights as a grid point's loads hold them: each matrix whole, each bias as one row. -/
def blockWeights (x4 : Vec Ideal S256x256 .f32) (x5 : Vec Ideal S1x256 .f32) (x6 : Vec Ideal S256x256 .f32)
    (x7 : Vec Ideal S1x256 .f32) (x8 : Vec Ideal S256x256 .f32) (x9 : Vec Ideal S1x256 .f32)
    (x10 : Vec Ideal S257x257 .f32) (x11 : Vec Ideal S1x257 .f32) (x12 : Vec Ideal S257x256 .f32)
    (x13 : Vec Ideal S1x256 .f32) : Weights where
  Wwr := fun k j => x4 (ix2 k j)
  bwr := fun j => x5 (ix2 0 j)
  Winf := fun k j => x6 (ix2 k j)
  binf := fun j => x7 (ix2 0 j)
  Wev := fun k j => x8 (ix2 k j)
  bev := fun j => x9 (ix2 0 j)
  We1 := fun k j => x10 (ix2 k j)
  be1 := fun j => x11 (ix2 0 j)
  We2 := fun k j => x12 (ix2 k j)
  be2 := fun j => x13 (ix2 0 j)

/-- WHAT THE BODY STORES in the ratio's buffer: entry (p, q) is the new ratio of row p at q. -/
theorem ratio_block (x0 : Vec Ideal S1024x256 .f32) (x1 x2 : Vec Ideal S1024x1 .f32) (x3 : Vec Ideal S1x256 .f32)
    (x4 : Vec Ideal S256x256 .f32) (x5 : Vec Ideal S1x256 .f32) (x6 : Vec Ideal S256x256 .f32)
    (x7 : Vec Ideal S1x256 .f32) (x8 : Vec Ideal S256x256 .f32) (x9 : Vec Ideal S1x256 .f32)
    (x10 : Vec Ideal S257x257 .f32) (x11 : Vec Ideal S1x257 .f32) (x12 : Vec Ideal S257x256 .f32)
    (x13 : Vec Ideal S1x256 .f32) (p : Fin 1024) (q : Fin 256) :
    out0_15 (F := Ideal) x0 x1 x2 x3 x4 x5 x6 x7 x8 x9 x10 x11 x12 x13 (ix2 p q)
      = ratio (blockWeights x4 x5 x6 x7 x8 x9 x10 x11 x12 x13) (fun k => x0 (ix2 p k)) (fun k => x3 (ix2 0 k))
          (x1 (ix2 p 0)) q := by
  unfold out0_15
  rw [View.canon_unit_zero zero_offsets]
  simp only [View.ld_unit_zero (S := S1024x256) zero_offsets, View.ld_unit_zero (S := S1024x1) zero_offsets,
    View.ld_unit_zero (S := S1x256) zero_offsets, View.ld_unit_zero (S := S256x256) zero_offsets]
  exact ratio_pay x0 x1 x3 x4 x5 p q

/-- WHAT THE BODY STORES in the runoff's buffer: entry (p, q) is the runoff of row p at q. -/
theorem runoff_block (x0 : Vec Ideal S1024x256 .f32) (x1 x2 : Vec Ideal S1024x1 .f32) (x3 : Vec Ideal S1x256 .f32)
    (x4 : Vec Ideal S256x256 .f32) (x5 : Vec Ideal S1x256 .f32) (x6 : Vec Ideal S256x256 .f32)
    (x7 : Vec Ideal S1x256 .f32) (x8 : Vec Ideal S256x256 .f32) (x9 : Vec Ideal S1x256 .f32)
    (x10 : Vec Ideal S257x257 .f32) (x11 : Vec Ideal S1x257 .f32) (x12 : Vec Ideal S257x256 .f32)
    (x13 : Vec Ideal S1x256 .f32) (p : Fin 1024) (q : Fin 256) :
    out0_14 (F := Ideal) x0 x1 x2 x3 x4 x5 x6 x7 x8 x9 x10 x11 x12 x13 (ix2 p q)
      = runoff (blockWeights x4 x5 x6 x7 x8 x9 x10 x11 x12 x13) (fun k => x0 (ix2 p k)) (fun k => x3 (ix2 0 k))
          (x1 (ix2 p 0)) (x2 (ix2 p 0)) q := by
  unfold out0_14
  rw [View.canon_unit_zero zero_offsets]
  simp only [View.ld_unit_zero (S := S1024x256) zero_offsets, View.ld_unit_zero (S := S1024x1) zero_offsets,
    View.ld_unit_zero (S := S1x256) zero_offsets, View.ld_unit_zero (S := S256x256) zero_offsets,
    View.ld_unit_zero (S := S1x257) zero_offsets, View.ld_unit_zero (S := S257x256) zero_offsets]
  simp only [pay2_id, pay3_id, pay4_id, pay5_id, pay11_id, pay15_id]
  rw [runoff_pay _ _ _ _ _ _ _ _ p _ (evapInput_pay _ _ x8 x9 p _ (soilWater_entry x0 x3 p)) q,
    infiltration_pay _ _ _ _ x7 p _ (soilWater_entry x0 x3 p) q,
    potential_pay _ _ _ x12 x13 p _
      (fun j => (hidden_pay x2 x3 (View.ld x10 r0_4) (View.ld x10 r0_5) x11 p j).trans (hidden_eq x2 x3 x10 x11 p j)) q,
    ratio_pay x0 x1 x3 x4 x5 p q, incr_entry x1 p]
  rfl

end Cert.WaterBalance.Kernel

end
-- ==== Proof.KernelBatch.lean ====
/-
  From the body's blocks to the whole result arrays.

  The call's operands are reshapes of the arguments: the ratios [65536, 16, 16] laid as [65536, 256], the precipitation and
  potential evaporation as columns, the capacities and every bias as one row.  The grid has 64 points; point t works on
  batch rows 1024·t … 1024·t + 1023 of the three batch operands and on the whole of every weight operand, and writes
  rows 1024·t … of the two results.  Row p of point t's block is batch row 1024·t + p, so what point t writes back is
  block t of one whole-array function of the arguments, and the 64 blocks tile the results.  The two reshapes after
  the call fold column 16·a + b of a result row back to grid cell (a, b).
-/
import Idealize.ShloMosaic.Lib.Pipeline.Value
import Idealize.ShloMosaic.Lib.ValueIdx
import Idealize.ShloMosaic.Lib.ValueLayout
import Idealize.ShloMosaic.Lib.StableHlo.Run
import proofs.«127483_j85478439125664_1_alg».proof.Proof.Gen.KernelIdeal.Frame
import proofs.«127483_j85478439125664_1_alg».proof.Proof.LibLayout
import proofs.«127483_j85478439125664_1_alg».proof.Proof.LibRowExpand
import proofs.«127483_j85478439125664_1_alg».proof.Proof.KernelRow

set_option maxRecDepth 16384

noncomputable section

namespace Cert.WaterBalance.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The call's operands: reshapes of the arguments -/

theorem V_ratios (c : Dev nD) : (V m c main_v0 : S65536x256.Idx → EReal)
    = shapeCast S65536x256 (m ((c : Thread nD τ).loc main_arg0)) shapeCasts_S65536x16x16_S65536x256 := by
  show StableHlo.after hostOps0 (fun b => m (c, b)) (Proc.devRef .tc main_v0) = _
  after_results
  rfl

theorem V_precip (c : Dev nD) : (V m c main_v1 : S65536x1.Idx → EReal)
    = shapeCast S65536x1 (m ((c : Thread nD τ).loc main_arg1)) shapeCasts_S65536_S65536x1 := by
  show StableHlo.after hostOps0 (fun b => m (c, b)) (Proc.devRef .tc main_v1) = _
  after_results
  rfl

theorem V_pevap (c : Dev nD) : (V m c main_v2 : S65536x1.Idx → EReal)
    = shapeCast S65536x1 (m ((c : Thread nD τ).loc main_arg2)) shapeCasts_S65536_S65536x1 := by
  show StableHlo.after hostOps0 (fun b => m (c, b)) (Proc.devRef .tc main_v2) = _
  after_results
  rfl

theorem V_cap (c : Dev nD) : (V m c main_v3 : S1x256.Idx → EReal)
    = shapeCast S1x256 (m ((c : Thread nD τ).loc main_arg3)) shapeCasts_S16x16_S1x256 := by
  show StableHlo.after hostOps0 (fun b => m (c, b)) (Proc.devRef .tc main_v3) = _
  after_results
  rfl

theorem V_bwr (c : Dev nD) : (V m c main_v4 : S1x256.Idx → EReal)
    = shapeCast S1x256 (m ((c : Thread nD τ).loc main_arg5)) shapeCasts_S256_S1x256 := by
  show StableHlo.after hostOps0 (fun b => m (c, b)) (Proc.devRef .tc main_v4) = _
  after_results
  rfl

theorem V_binf (c : Dev nD) : (V m c main_v5 : S1x256.Idx → EReal)
    = shapeCast S1x256 (m ((c : Thread nD τ).loc main_arg7)) shapeCasts_S256_S1x256 := by
  show StableHlo.after hostOps0 (fun b => m (c, b)) (Proc.devRef .tc main_v5) = _
  after_results
  rfl

theorem V_bev (c : Dev nD) : (V m c main_v6 : S1x256.Idx → EReal)
    = shapeCast S1x256 (m ((c : Thread nD τ).loc main_arg9)) shapeCasts_S256_S1x256 := by
  show StableHlo.after hostOps0 (fun b => m (c, b)) (Proc.devRef .tc main_v6) = _
  after_results
  rfl

theorem V_be1 (c : Dev nD) : (V m c main_v7 : S1x257.Idx → EReal)
    = shapeCast S1x257 (m ((c : Thread nD τ).loc main_arg11)) shapeCasts_S257_S1x257 := by
  show StableHlo.after hostOps0 (fun b => m (c, b)) (Proc.devRef .tc main_v7) = _
  after_results
  rfl

theorem V_be2 (c : Dev nD) : (V m c main_v8 : S1x256.Idx → EReal)
    = shapeCast S1x256 (m ((c : Thread nD τ).loc main_arg13)) shapeCasts_S256_S1x256 := by
  show StableHlo.after hostOps0 (fun b => m (c, b)) (Proc.devRef .tc main_v8) = _
  after_results
  rfl

/-! ## The windows' blocks as rows of the arguments -/

/-- The printed index maps over the grid: the three batch operands and the two results move with the grid coordinate
    along their first axis; every weight operand stays at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- Batch row of row p of grid point t's block. -/
def rowAt (t : Fin cfg0.N) (p : Fin 1024) : Fin 65536 :=
  ⟨1024 * t.val + p.val, by have h : t.val < 64 := Nat.lt_of_lt_of_eq t.isLt N_0; omega⟩

/-- Row p of the ratios' block at point t is batch row 1024·t + p of the flattened ratios. -/
theorem ratios_read (c : Dev nD) (t : Fin cfg0.N) (p : Fin 1024) (k : Fin 256) :
    iblk m c 0 t (ix2 p k) = V m c main_v0 (ix2 (rowAt t p) k) := by
  show V m c main_v0 (((cfg0.win 0).blk t).view.emb (ix2 p k)) = _
  refine congrArg (V m c main_v0) (funext fun a => Fin.ext ?_)
  obtain ⟨⟨e0, e1⟩, -⟩ := index_facts t
  match a with
  | ⟨0, _⟩ => show win0_0.index t (0 : Fin 2) * 1024 + 1 * p.val = 1024 * t.val + p.val; omega
  | ⟨1, _⟩ => show win0_0.index t (1 : Fin 2) * 256 + 1 * k.val = k.val; omega

theorem precip_read (c : Dev nD) (t : Fin cfg0.N) (p : Fin 1024) :
    iblk m c 1 t (ix2 p 0) = V m c main_v1 (ix2 (rowAt t p) 0) := by
  show V m c main_v1 (((cfg0.win 1).blk t).view.emb (ix2 p 0)) = _
  refine congrArg (V m c main_v1) (funext fun a => Fin.ext ?_)
  obtain ⟨-, ⟨e0, e1⟩, -⟩ := index_facts t
  match a with
  | ⟨0, _⟩ => show win0_1.index t (0 : Fin 2) * 1024 + 1 * p.val = 1024 * t.val + p.val; omega
  | ⟨1, _⟩ => show win0_1.index t (1 : Fin 2) * 1 + 1 * 0 = 0; omega

theorem pevap_read (c : Dev nD) (t : Fin cfg0.N) (p : Fin 1024) :
    iblk m c 2 t (ix2 p 0) = V m c main_v2 (ix2 (rowAt t p) 0) := by
  show V m c main_v2 (((cfg0.win 2).blk t).view.emb (ix2 p 0)) = _
  refine congrArg (V m c main_v2) (funext fun a => Fin.ext ?_)
  obtain ⟨-, -, ⟨e0, e1⟩, -⟩ := index_facts t
  match a with
  | ⟨0, _⟩ => show win0_2.index t (0 : Fin 2) * 1024 + 1 * p.val = 1024 * t.val + p.val; omega
  | ⟨1, _⟩ => show win0_2.index t (1 : Fin 2) * 1 + 1 * 0 = 0; omega

/-- A weight operand's block at every point is its whole array. -/
theorem cap_read (c : Dev nD) (t : Fin cfg0.N) (z : Fin 1) (j : Fin 256) :
    iblk m c 3 t (ix2 z j) = V m c main_v3 (ix2 z j) := by
  show V m c main_v3 (((cfg0.win 3).blk t).view.emb (ix2 z j)) = _
  refine congrArg (V m c main_v3) (funext fun a => Fin.ext ?_)
  obtain ⟨-, -, -, ⟨e0, e1⟩, -⟩ := index_facts t
  match a with
  | ⟨0, _⟩ => show win0_3.index t (0 : Fin 2) * 1 + 1 * z.val = z.val; omega
  | ⟨1, _⟩ => show win0_3.index t (1 : Fin 2) * 256 + 1 * j.val = j.val; omega

theorem Wwr_read (c : Dev nD) (t : Fin cfg0.N) (z : Fin 256) (j : Fin 256) :
    iblk m c 4 t (ix2 z j) = V m c main_arg4 (ix2 z j) := by
  show V m c main_arg4 (((cfg0.win 4).blk t).view.emb (ix2 z j)) = _
  refine congrArg (V m c main_arg4) (funext fun a => Fin.ext ?_)
  obtain ⟨-, -, -, -, ⟨e0, e1⟩, -⟩ := index_facts t
  match a with
  | ⟨0, _⟩ => show win0_4.index t (0 : Fin 2) * 256 + 1 * z.val = z.val; omega
  | ⟨1, _⟩ => show win0_4.index t (1 : Fin 2) * 256 + 1 * j.val = j.val; omega

theorem bwr_read (c : Dev nD) (t : Fin cfg0.N) (z : Fin 1) (j : Fin 256) :
    iblk m c 5 t (ix2 z j) = V m c main_v4 (ix2 z j) := by
  show V m c main_v4 (((cfg0.win 5).blk t).view.emb (ix2 z j)) = _
  refine congrArg (V m c main_v4) (funext fun a => Fin.ext ?_)
  obtain ⟨-, -, -, -, -, ⟨e0, e1⟩, -⟩ := index_facts t
  match a with
  | ⟨0, _⟩ => show win0_5.index t (0 : Fin 2) * 1 + 1 * z.val = z.val; omega
  | ⟨1, _⟩ => show win0_5.index t (1 : Fin 2) * 256 + 1 * j.val = j.val; omega

theorem Winf_read (c : Dev nD) (t : Fin cfg0.N) (z : Fin 256) (j : Fin 256) :
    iblk m c 6 t (ix2 z j) = V m c main_arg6 (ix2 z j) := by
  show V m c main_arg6 (((cfg0.win 6).blk t).view.emb (ix2 z j)) = _
  refine congrArg (V m c main_arg6) (funext fun a => Fin.ext ?_)
  obtain ⟨-, -, -, -, -, -, ⟨e0, e1⟩, -⟩ := index_facts t
  match a with
  | ⟨0, _⟩ => show win0_6.index t (0 : Fin 2) * 256 + 1 * z.val = z.val; omega
  | ⟨1, _⟩ => show win0_6.index t (1 : Fin 2) * 256 + 1 * j.val = j.val; omega

theorem binf_read (c : Dev nD) (t : Fin cfg0.N) (z : Fin 1) (j : Fin 256) :
    iblk m c 7 t (ix2 z j) = V m c main_v5 (ix2 z j) := by
  show V m c main_v5 (((cfg0.win 7).blk t).view.emb (ix2 z j)) = _
  refine congrArg (V m c main_v5) (funext fun a => Fin.ext ?_)
  obtain ⟨-, -, -, -, -, -, -, ⟨e0, e1⟩, -⟩ := index_facts t
  match a with
  | ⟨0, _⟩ => show win0_7.index t (0 : Fin 2) * 1 + 1 * z.val = z.val; omega
  | ⟨1, _⟩ => show win0_7.index t (1 : Fin 2) * 256 + 1 * j.val = j.val; omega

theorem Wev_read (c : Dev nD) (t : Fin cfg0.N) (z : Fin 256) (j : Fin 256) :
    iblk m c 8 t (ix2 z j) = V m c main_arg8 (ix2 z j) := by
  show V m c main_arg8 (((cfg0.win 8).blk t).view.emb (ix2 z j)) = _
  refine congrArg (V m c main_arg8) (funext fun a => Fin.ext ?_)
  obtain ⟨-, -, -, -, -, -, -, -, ⟨e0, e1⟩, -⟩ := index_facts t
  match a with
  | ⟨0, _⟩ => show win0_8.index t (0 : Fin 2) * 256 + 1 * z.val = z.val; omega
  | ⟨1, _⟩ => show win0_8.index t (1 : Fin 2) * 256 + 1 * j.val = j.val; omega

theorem bev_read (c : Dev nD) (t : Fin cfg0.N) (z : Fin 1) (j : Fin 256) :
    iblk m c 9 t (ix2 z j) = V m c main_v6 (ix2 z j) := by
  show V m c main_v6 (((cfg0.win 9).blk t).view.emb (ix2 z j)) = _
  refine congrArg (V m c main_v6) (funext fun a => Fin.ext ?_)
  obtain ⟨-, -, -, -, -, -, -, -, -, ⟨e0, e1⟩, -⟩ := index_facts t
  match a with
  | ⟨0, _⟩ => show win0_9.index t (0 : Fin 2) * 1 + 1 * z.val = z.val; omega
  | ⟨1, _⟩ => show win0_9.index t (1 : Fin 2) * 256 + 1 * j.val = j.val; omega

theorem We1_read (c : Dev nD) (t : Fin cfg0.N) (z : Fin 257) (j : Fin 257) :
    iblk m c 10 t (ix2 z j) = V m c main_arg10 (ix2 z j) := by
  show V m c main_arg10 (((cfg0.win 10).blk t).view.emb (ix2 z j)) = _
  refine congrArg (V m c main_arg10) (funext fun a => Fin.ext ?_)
  obtain ⟨-, -, -, -, -, -, -, -, -, -, ⟨e0, e1⟩, -⟩ := index_facts t
  match a with
  | ⟨0, _⟩ => show win0_10.index t (0 : Fin 2) * 257 + 1 * z.val = z.val; omega
  | ⟨1, _⟩ => show win0_10.index t (1 : Fin 2) * 257 + 1 * j.val = j.val; omega

theorem be1_read (c : Dev nD) (t : Fin cfg0.N) (z : Fin 1) (j : Fin 257) :
    iblk m c 11 t (ix2 z j) = V m c main_v7 (ix2 z j) := by
  show V m c main_v7 (((cfg0.win 11).blk t).view.emb (ix2 z j)) = _
  refine congrArg (V m c main_v7) (funext fun a => Fin.ext ?_)
  obtain ⟨-, -, -, -, -, -, -, -, -, -, -, ⟨e0, e1⟩, -⟩ := index_facts t
  match a with
  | ⟨0, _⟩ => show win0_11.index t (0 : Fin 2) * 1 + 1 * z.val = z.val; omega
  | ⟨1, _⟩ => show win0_11.index t (1 : Fin 2) * 257 + 1 * j.val = j.val; omega

theorem We2_read (c : Dev nD) (t : Fin cfg0.N) (z : Fin 257) (j : Fin 256) :
    iblk m c 12 t (ix2 z j) = V m c main_arg12 (ix2 z j) := by
  show V m c main_arg12 (((cfg0.win 12).blk t).view.emb (ix2 z j)) = _
  refine congrArg (V m c main_arg12) (funext fun a => Fin.ext ?_)
  obtain ⟨-, -, -, -, -, -, -, -, -, -, -, -, ⟨e0, e1⟩, -⟩ := index_facts t
  match a with
  | ⟨0, _⟩ => show win0_12.index t (0 : Fin 2) * 257 + 1 * z.val = z.val; omega
  | ⟨1, _⟩ => show win0_12.index t (1 : Fin 2) * 256 + 1 * j.val = j.val; omega

theorem be2_read (c : Dev nD) (t : Fin cfg0.N) (z : Fin 1) (j : Fin 256) :
    iblk m c 13 t (ix2 z j) = V m c main_v8 (ix2 z j) := by
  show V m c main_v8 (((cfg0.win 13).blk t).view.emb (ix2 z j)) = _
  refine congrArg (V m c main_v8) (funext fun a => Fin.ext ?_)
  obtain ⟨-, -, -, -, -, -, -, -, -, -, -, -, -, ⟨e0, e1⟩, -⟩ := index_facts t
  match a with
  | ⟨0, _⟩ => show win0_13.index t (0 : Fin 2) * 1 + 1 * z.val = z.val; omega
  | ⟨1, _⟩ => show win0_13.index t (1 : Fin 2) * 256 + 1 * j.val = j.val; omega

/-! ## Rows of the arguments -/

/-- The capacities [16, 16] laid as one row [1, 256]: position k of the row is grid cell (k / 16, k % 16). -/
theorem gridRow_apply {α : Type} (x : (⟨2, ![16, 16]⟩ : Shape).Idx → α)
    (h : (⟨2, ![16, 16]⟩ : Shape).ShapeCasts ⟨2, ![1, 256]⟩) (k : Fin 256) :
    shapeCast ⟨2, ![1, 256]⟩ x h (ix2 0 k) = x (ix2 (hi k) (lo k)) :=
  shapeCast_apply x h _ _ (by
    rw [Shape.rowMajor_val_two, Shape.rowMajor_val_two]
    show (hi k).val * 16 + (lo k).val = 0 * 256 + k.val
    have := val_eq_hi_lo k; omega)

/-- The step's weights, read off the arguments. -/
def weightsAt (c : Dev nD) : Weights :=
  weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem ratios_row (c : Dev nD) (t : Fin cfg0.N) (p : Fin 1024) :
    (fun k => iblk m c 0 t (ix2 p k)) = rowOf (m ((c : Thread nD τ).loc main_arg0)) (rowAt t p) := by
  funext k
  exact (ratios_read m c t p k).trans ((congrFun (V_ratios m c) _).trans
    (Cert.LibRowExpand.shapeCast_abc_aw_apply (m ((c : Thread nD τ).loc main_arg0)) shapeCasts_S65536x16x16_S65536x256 rfl
      (rowAt t p) (hi k) (lo k) k (val_eq_hi_lo k)))

theorem cap_row (c : Dev nD) (t : Fin cfg0.N) : (fun k => iblk m c 3 t (ix2 0 k)) = capOf (m ((c : Thread nD τ).loc main_arg3)) := by
  funext k
  exact (cap_read m c t 0 k).trans ((congrFun (V_cap m c) _).trans (gridRow_apply (m ((c : Thread nD τ).loc main_arg3)) shapeCasts_S16x16_S1x256 k))

theorem precip_entry (c : Dev nD) (t : Fin cfg0.N) (p : Fin 1024) :
    iblk m c 1 t (ix2 p 0) = (m ((c : Thread nD τ).loc main_arg1)) (ix1 (rowAt t p)) :=
  (precip_read m c t p).trans ((congrFun (V_precip m c) _).trans
    (Cert.LibLayout.shapeCast_a_a1_apply (m ((c : Thread nD τ).loc main_arg1)) shapeCasts_S65536_S65536x1 (rowAt t p) 0))

theorem pevap_entry (c : Dev nD) (t : Fin cfg0.N) (p : Fin 1024) :
    iblk m c 2 t (ix2 p 0) = (m ((c : Thread nD τ).loc main_arg2)) (ix1 (rowAt t p)) :=
  (pevap_read m c t p).trans ((congrFun (V_pevap m c) _).trans
    (Cert.LibLayout.shapeCast_a_a1_apply (m ((c : Thread nD τ).loc main_arg2)) shapeCasts_S65536_S65536x1 (rowAt t p) 0))

/-- At every point the loaded weights are the step's weights. -/
theorem blockWeights_eq (c : Dev nD) (t : Fin cfg0.N) :
    blockWeights (iblk m c 4 t) (iblk m c 5 t) (iblk m c 6 t) (iblk m c 7 t) (iblk m c 8 t) (iblk m c 9 t)
      (iblk m c 10 t) (iblk m c 11 t) (iblk m c 12 t) (iblk m c 13 t) = weightsAt m c := by
  have h4 : (fun k j => iblk m c 4 t (ix2 k j)) = matOf (m ((c : Thread nD τ).loc main_arg4)) :=
    funext fun k => funext fun j => (Wwr_read m c t k j).trans (congrFun (V_main_arg4 m c) _)
  have h5 : (fun j => iblk m c 5 t (ix2 0 j)) = vecOf (m ((c : Thread nD τ).loc main_arg5)) :=
    funext fun j => (bwr_read m c t 0 j).trans ((congrFun (V_bwr m c) _).trans (shapeCast_a_1a_apply (m ((c : Thread nD τ).loc main_arg5)) shapeCasts_S256_S1x256 0 j))
  have h6 : (fun k j => iblk m c 6 t (ix2 k j)) = matOf (m ((c : Thread nD τ).loc main_arg6)) :=
    funext fun k => funext fun j => (Winf_read m c t k j).trans (congrFun (V_main_arg6 m c) _)
  have h7 : (fun j => iblk m c 7 t (ix2 0 j)) = vecOf (m ((c : Thread nD τ).loc main_arg7)) :=
    funext fun j => (binf_read m c t 0 j).trans ((congrFun (V_binf m c) _).trans (shapeCast_a_1a_apply (m ((c : Thread nD τ).loc main_arg7)) shapeCasts_S256_S1x256 0 j))
  have h8 : (fun k j => iblk m c 8 t (ix2 k j)) = matOf (m ((c : Thread nD τ).loc main_arg8)) :=
    funext fun k => funext fun j => (Wev_read m c t k j).trans (congrFun (V_main_arg8 m c) _)
  have h9 : (fun j => iblk m c 9 t (ix2 0 j)) = vecOf (m ((c : Thread nD τ).loc main_arg9)) :=
    funext fun j => (bev_read m c t 0 j).trans ((congrFun (V_bev m c) _).trans (shapeCast_a_1a_apply (m ((c : Thread nD τ).loc main_arg9)) shapeCasts_S256_S1x256 0 j))
  have h10 : (fun k j => iblk m c 10 t (ix2 k j)) = matOf (m ((c : Thread nD τ).loc main_arg10)) :=
    funext fun k => funext fun j => (We1_read m c t k j).trans (congrFun (V_main_arg10 m c) _)
  have h11 : (fun j => iblk m c 11 t (ix2 0 j)) = vecOf (m ((c : Thread nD τ).loc main_arg11)) :=
    funext fun j => (be1_read m c t 0 j).trans ((congrFun (V_be1 m c) _).trans (shapeCast_a_1a_apply (m ((c : Thread nD τ).loc main_arg11)) shapeCasts_S257_S1x257 0 j))
  have h12 : (fun k j => iblk m c 12 t (ix2 k j)) = matOf (m ((c : Thread nD τ).loc main_arg12)) :=
    funext fun k => funext fun j => (We2_read m c t k j).trans (congrFun (V_main_arg12 m c) _)
  have h13 : (fun j => iblk m c 13 t (ix2 0 j)) = vecOf (m ((c : Thread nD τ).loc main_arg13)) :=
    funext fun j => (be2_read m c t 0 j).trans ((congrFun (V_be2 m c) _).trans (shapeCast_a_1a_apply (m ((c : Thread nD τ).loc main_arg13)) shapeCasts_S256_S1x256 0 j))
  unfold blockWeights weightsAt weightsOf
  rw [h4, h5, h6, h7, h8, h9, h10, h11, h12, h13]

/-! ## What each point writes back, and the final arrays -/

/-- The new ratios over the batch, each row laid flat. -/
def ratioFlat (c : Dev nD) : S65536x256.Idx → EReal := fun i =>
  ratio (weightsAt m c) (rowOf (m ((c : Thread nD τ).loc main_arg0)) (i 0)) (capOf (m ((c : Thread nD τ).loc main_arg3))) ((m ((c : Thread nD τ).loc main_arg1)) (ix1 (i 0))) (i 1)

/-- The runoff over the batch, each row laid flat. -/
def runoffFlat (c : Dev nD) : S65536x256.Idx → EReal := fun i =>
  runoff (weightsAt m c) (rowOf (m ((c : Thread nD τ).loc main_arg0)) (i 0)) (capOf (m ((c : Thread nD τ).loc main_arg3))) ((m ((c : Thread nD τ).loc main_arg1)) (ix1 (i 0))) ((m ((c : Thread nD τ).loc main_arg2)) (ix1 (i 0))) (i 1)

/-- Entry (p, q) of point t's block of a result is entry (1024·t + p, q) of the result. -/
theorem out_index15 (t : Fin cfg0.N) (p : Fin 1024) (q : Fin 256) :
    ((cfg0.win 15).blk t).view.emb (ix2 p q) = ix2 (rowAt t p) q := by
  funext a; apply Fin.ext
  obtain ⟨-, -, -, -, -, -, -, -, -, -, -, -, -, -, -, ⟨e0, e1⟩⟩ := index_facts t
  match a with
  | ⟨0, _⟩ => show win0_15.index t (0 : Fin 2) * 1024 + 1 * p.val = 1024 * t.val + p.val; omega
  | ⟨1, _⟩ => show win0_15.index t (1 : Fin 2) * 256 + 1 * q.val = q.val; omega

theorem out_index14 (t : Fin cfg0.N) (p : Fin 1024) (q : Fin 256) :
    ((cfg0.win 14).blk t).view.emb (ix2 p q) = ix2 (rowAt t p) q := by
  funext a; apply Fin.ext
  obtain ⟨-, -, -, -, -, -, -, -, -, -, -, -, -, -, ⟨e0, e1⟩, -⟩ := index_facts t
  match a with
  | ⟨0, _⟩ => show win0_14.index t (0 : Fin 2) * 1024 + 1 * p.val = 1024 * t.val + p.val; omega
  | ⟨1, _⟩ => show win0_14.index t (1 : Fin 2) * 256 + 1 * q.val = q.val; omega

/-- WHAT POINT t WRITES BACK to the ratios' result is block t of the batch's new ratios. -/
theorem flushed15_eq (c : Dev nD) (t : Fin cfg0.N) :
    (dats m 0 c).flushed 15 t = ((cfg0.win 15).blk t).view.read (Elt Ideal) (ratioFlat m c) := by
  show (cfg0.win 15).cut (grid0.coords t) ((dats m 0 c).after 15 t) = _
  rw [after0_15]
  funext j
  obtain ⟨p, q, rfl⟩ : ∃ (p : Fin 1024) (q : Fin 256), j = ix2 p q := ⟨j 0, j 1, eq_ix2 j⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = ratioFlat m c (((cfg0.win 15).blk t).view.emb (ix2 p q))
  refine (ratio_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [out_index15 t p q, blockWeights_eq m c t, ratios_row m c t p, cap_row m c t, precip_entry m c t p]
  rfl

/-- WHAT POINT t WRITES BACK to the runoff's result is block t of the batch's runoff. -/
theorem flushed14_eq (c : Dev nD) (t : Fin cfg0.N) :
    (dats m 0 c).flushed 14 t = ((cfg0.win 14).blk t).view.read (Elt Ideal) (runoffFlat m c) := by
  show (cfg0.win 14).cut (grid0.coords t) ((dats m 0 c).after 14 t) = _
  rw [after0_14]
  funext j
  obtain ⟨p, q, rfl⟩ : ∃ (p : Fin 1024) (q : Fin 256), j = ix2 p q := ⟨j 0, j 1, eq_ix2 j⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = runoffFlat m c (((cfg0.win 14).blk t).view.emb (ix2 p q))
  refine (runoff_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [out_index14 t p q, blockWeights_eq m c t, ratios_row m c t p, cap_row m c t, precip_entry m c t p,
    pevap_entry m c t p]
  rfl

/-! ## The blocks tile the results -/

/-- An index of the result is in point t's block iff each coordinate is in the block's range on its axis. -/
theorem mem_blk15 (t : Fin cfg0.N) (i : S65536x256.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v9_1).slice (win0_15.rect t)).set ↔ _
  rw [View.set_slice_whole, Rect.mem_set_unit]
  exact Iff.rfl

/-- Every row of the result lies in the block of the point numbered by the row's quotient by 1024. -/
theorem cover15 (i : S65536x256.Idx) :
    ∃ t : Fin cfg0.N, (cfg0.win 15).flush t = true ∧ i ∈ ((cfg0.win 15).blk t).view.set := by
  have h0 : (i 0).val < 65536 := (i 0).isLt
  have h1 : (i 1).val < 256 := (i 1).isLt
  have hN : cfg0.N = 64 := N_0
  have hlt : (i 0).val / 1024 < cfg0.N := by rw [hN]; omega
  refine ⟨⟨(i 0).val / 1024, hlt⟩, flush0_15 _, ?_⟩
  rw [mem_blk15]
  obtain ⟨-, -, -, -, -, -, -, -, -, -, -, -, -, -, -, ⟨e0, e1⟩⟩ := index_facts ⟨(i 0).val / 1024, hlt⟩
  have ht : (⟨(i 0).val / 1024, hlt⟩ : Fin cfg0.N).val = (i 0).val / 1024 := rfl
  intro a
  match a with
  | ⟨0, _⟩ =>
    show win0_15.index ⟨(i 0).val / 1024, hlt⟩ (0 : Fin 2) * 1024 ≤ (i 0).val
      ∧ (i 0).val < win0_15.index ⟨(i 0).val / 1024, hlt⟩ (0 : Fin 2) * 1024 + 1024
    omega
  | ⟨1, _⟩ =>
    show win0_15.index ⟨(i 0).val / 1024, hlt⟩ (1 : Fin 2) * 256 ≤ (i 1).val
      ∧ (i 1).val < win0_15.index ⟨(i 0).val / 1024, hlt⟩ (1 : Fin 2) * 256 + 256
    omega

/-- An index of the result is in point t's block iff each coordinate is in the block's range on its axis. -/
theorem mem_blk14 (t : Fin cfg0.N) (i : S65536x256.Idx) :
    i ∈ ((cfg0.win 14).blk t).view.set ↔ ∀ a : Fin 2, win0_14.index t a * S1024x256.size a ≤ (i a).val
      ∧ (i a).val < win0_14.index t a * S1024x256.size a + S1024x256.size a := by
  show i ∈ ((View.whole main_v9_0).slice (win0_14.rect t)).set ↔ _
  rw [View.set_slice_whole, Rect.mem_set_unit]
  exact Iff.rfl

/-- Every row of the result lies in the block of the point numbered by the row's quotient by 1024. -/
theorem cover14 (i : S65536x256.Idx) :
    ∃ t : Fin cfg0.N, (cfg0.win 14).flush t = true ∧ i ∈ ((cfg0.win 14).blk t).view.set := by
  have h0 : (i 0).val < 65536 := (i 0).isLt
  have h1 : (i 1).val < 256 := (i 1).isLt
  have hN : cfg0.N = 64 := N_0
  have hlt : (i 0).val / 1024 < cfg0.N := by rw [hN]; omega
  refine ⟨⟨(i 0).val / 1024, hlt⟩, flush0_14 _, ?_⟩
  rw [mem_blk14]
  obtain ⟨-, -, -, -, -, -, -, -, -, -, -, -, -, -, ⟨e0, e1⟩, -⟩ := index_facts ⟨(i 0).val / 1024, hlt⟩
  have ht : (⟨(i 0).val / 1024, hlt⟩ : Fin cfg0.N).val = (i 0).val / 1024 := rfl
  intro a
  match a with
  | ⟨0, _⟩ =>
    show win0_14.index ⟨(i 0).val / 1024, hlt⟩ (0 : Fin 2) * 1024 ≤ (i 0).val
      ∧ (i 0).val < win0_14.index ⟨(i 0).val / 1024, hlt⟩ (0 : Fin 2) * 1024 + 1024
    omega
  | ⟨1, _⟩ =>
    show win0_14.index ⟨(i 0).val / 1024, hlt⟩ (1 : Fin 2) * 256 ≤ (i 1).val
      ∧ (i 1).val < win0_14.index ⟨(i 0).val / 1024, hlt⟩ (1 : Fin 2) * 256 + 256
    omega

/-- The ratios' result after the run. -/
theorem final15 (c : Dev nD) : (dats m 0 c).arrAt 15 cfg0.N = ratioFlat m c :=
  (dats m 0 c).arrAt_eq_of_cover 15 (ratioFlat m c) (fun t _ => flushed15_eq m c t) cover15

/-- The runoff's result after the run. -/
theorem final14 (c : Dev nD) : (dats m 0 c).arrAt 14 cfg0.N = runoffFlat m c :=
  (dats m 0 c).arrAt_eq_of_cover 14 (runoffFlat m c) (fun t _ => flushed14_eq m c t) cover14

/-! ## The two reshapes after the call -/

/-- A flat row's column 16·a + b folded back to grid cell (a, b). -/
theorem ratio_unflat (c : Dev nD) :
    shapeCast S65536x16x16 (ratioFlat m c) shapeCasts_S65536x256_S65536x16x16
      = ratioArr (m ((c : Thread nD τ).loc main_arg0)) (m ((c : Thread nD τ).loc main_arg1)) (m ((c : Thread nD τ).loc main_arg3)) (weightsAt m c) := by
  funext i
  obtain ⟨P, a, b, rfl⟩ : ∃ (P : Fin 65536) (a b : Fin 16), i = ix3 P a b := ⟨i 0, i 1, i 2, eq_ix3 i⟩
  exact Cert.LibRowExpand.shapeCast_aw_abc_apply (ratioFlat m c) shapeCasts_S65536x256_S65536x16x16 rfl P a b
    (cell a b) rfl

theorem runoff_unflat (c : Dev nD) :
    shapeCast S65536x16x16 (runoffFlat m c) shapeCasts_S65536x256_S65536x16x16
      = runoffArr (m ((c : Thread nD τ).loc main_arg0)) (m ((c : Thread nD τ).loc main_arg1)) (m ((c : Thread nD τ).loc main_arg2)) (m ((c : Thread nD τ).loc main_arg3)) (weightsAt m c) := by
  funext i
  obtain ⟨P, a, b, rfl⟩ : ∃ (P : Fin 65536) (a b : Fin 16), i = ix3 P a b := ⟨i 0, i 1, i 2, eq_ix3 i⟩
  exact Cert.LibRowExpand.shapeCast_aw_abc_apply (runoffFlat m c) shapeCasts_S65536x256_S65536x16x16 rfl P a b
    (cell a b) rfl

/-- The second result of @main: the reshape of the ratios' array the call left. -/
theorem tail_ratio (c : Dev nD) :
    Pipeline.afterTail₀ cfgs (dats m) 0 (V0 m) [hostOps1] c main_v11
      = shapeCast S65536x16x16 (ratioFlat m c) shapeCasts_S65536x256_S65536x16x16 := by
  unfold Pipeline.afterTail₀
  show StableHlo.after hostOps1 _ (Proc.devRef .tc main_v11) = _
  after_results
  exact congrArg (fun X => shapeCast S65536x16x16 X shapeCasts_S65536x256_S65536x16x16)
    ((Pipeline.withArrays_arr spec0 launch0.win.arr_inj c _ _ 15).trans (final15 m c))

/-- The first result of @main: the reshape of the runoff's array the call left. -/
theorem tail_runoff (c : Dev nD) :
    Pipeline.afterTail₀ cfgs (dats m) 0 (V0 m) [hostOps1] c main_v10
      = shapeCast S65536x16x16 (runoffFlat m c) shapeCasts_S65536x256_S65536x16x16 := by
  unfold Pipeline.afterTail₀
  show StableHlo.after hostOps1 _ (Proc.devRef .tc main_v10) = _
  after_results
  exact congrArg (fun X => shapeCast S65536x16x16 X shapeCasts_S65536x256_S65536x16x16)
    ((Pipeline.withArrays_arr spec0 launch0.win.arr_inj c _ _ 14).trans (final14 m c))

/-! ## The run, read -/

/-- Every weakly fair execution of the idealized kernel's @main terminates with its two results at the batch's runoff
    and new ratios as functions of the arguments, and the arguments unchanged. -/
theorem run : θ_run defs (onTc (τ := τ) (main (F := Ideal))) ⟨m, fun _ => 0, ρ⟩ fun r => ∀ c : Dev nD,
      r.2.mem ((c.tc : Thread nD τ).loc main_v10) = runoffArr (m ((c : Thread nD τ).loc main_arg0)) (m ((c : Thread nD τ).loc main_arg1)) (m ((c : Thread nD τ).loc main_arg2)) (m ((c : Thread nD τ).loc main_arg3)) (weightsAt m c)
      ∧ r.2.mem ((c.tc : Thread nD τ).loc main_v11) = ratioArr (m ((c : Thread nD τ).loc main_arg0)) (m ((c : Thread nD τ).loc main_arg1)) (m ((c : Thread nD τ).loc main_arg3)) (weightsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨
      ((h c).2 main_v10 (Pipeline.mem_restRefs_of main_v10 (by decide) (by decide))).trans
        ((tail_runoff m c).trans (runoff_unflat m c)),
      ((h c).2 main_v11 (Pipeline.mem_restRefs_of main_v11 (by decide) (by decide))).trans
        ((tail_ratio m c).trans (ratio_unflat m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c)⟩)
    (run_main m ρ)

end Cert.WaterBalance.Kernel

end
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.RefPerceptron.lean ====
/-
  The reference's perceptron that spreads the potential evaporation, read entry by entry on the extended reals.

  The reference joins, for every batch row, the 256 capacities (laid flat and repeated down the rows) with the row's
  potential evaporation into an input row of length 257, multiplies by the 257 × 257 first weight matrix, adds the bias,
  takes the maximum with zero, multiplies by the 257 × 256 second weight matrix and adds its bias.  The first product's
  sum over 257 terms splits into its first 256 terms and its last: the capacities against the first 256 rows of the
  matrix, and the potential evaporation against its last row — the specification's hidden layer.
-/
import proofs.«127483_j85478439125664_1_alg».proof.Proof.Gen.ReferenceIdeal.Read
import proofs.«127483_j85478439125664_1_alg».proof.Proof.Batch
import proofs.«127483_j85478439125664_1_alg».proof.Proof.LibHostDot
import proofs.«127483_j85478439125664_1_alg».proof.Proof.LibCombine

noncomputable section

namespace Cert.WaterBalance.Ref

open Cert.ReferenceIdeal Cert.ReferenceIdeal.Gen Cert.ReferenceIdeal.Read Idealize.ShloMosaic Idealize.ShloMosaic.ValueIdx
  Idealize.ShloMosaic.StableHlo

/-- The array types of the reference's arguments and stages. -/
abbrev Arr (s : Shape) : Type := FVec Ideal s .f32

/-- A bias vector repeated down the rows reads, at (P, q), its entry q. -/
theorem biasRows_apply (bv : Arr S256) (P : Fin 65536) (q : Fin 256) :
    val_main_v11 (F := Ideal) bv (ix2 P q) = bv (ix1 q) := by
  rw [val_main_v11_apply, val_main_v10_apply]
  exact congrArg bv (funext fun c => Fin.ext (by match c with | ⟨0, _⟩ => rfl))

/-! ## The perceptron that spreads the potential evaporation -/

/-- The capacities laid flat and repeated down the rows read, at (P, k), the capacity at flat position k. -/
theorem capRows_apply (x3 : Arr S16x16) (P : Fin 65536) (k : Fin 256) :
    val_main_v79 (F := Ideal) x3 (ix2 P k) = capOf x3 k := by
  unfold val_main_v79
  rw [Cert.LibCombine.wholeRow_apply _ bcast_S1x256_S65536x256_0_1 P k]
  unfold val_main_v78 capOf
  refine shapeCast_apply x3 shapeCasts_S16x16_S1x256 _ _ ?_
  rw [Shape.rowMajor_val_two, Shape.rowMajor_val_two]
  show k.val / 16 * 16 + k.val % 16 = 0 * 256 + k.val
  omega

/-- The potential evaporations stood up as a column read, at (P, 0), the one of row P. -/
theorem peColumn_apply (x2 : Arr S65536) (P : Fin 65536) :
    val_main_v80 (F := Ideal) x2 (ix2 P (0 : Fin 1)) = x2 (ix1 P) :=
  broadcastInDim_apply _ bcast_S65536_S65536x1_0 x2 (ix2 P (0 : Fin 1)) (ix1 P) (fun a => match a with
    | ⟨0, _⟩ => by show P.val = if (65536 : Nat) = 1 then 0 else P.val; rw [if_neg (by decide)])

/-- The perceptron's input row: its first 256 entries are the capacities. -/
theorem inputRow_castSucc (x2 : Arr S65536) (x3 : Arr S16x16) (P : Fin 65536) (k : Fin 256) :
    val_main_v81 (F := Ideal) x2 x3 (ix2 P k.castSucc) = capOf x3 k := by
  unfold val_main_v81
  rw [concatenate_pair_apply_left (t := S65536x257) (s₁ := S65536x256) (s₂ := S65536x1) (1 : Fin 2) _ _ concatenates_S65536x256_S65536x1_S65536x257_d1 (ix2 P k.castSucc) rfl
    (ix2 P k) (fun b => by match b with | ⟨0, _⟩ => rfl | ⟨1, _⟩ => rfl)]
  exact capRows_apply x3 P k

/-- The perceptron's input row: its last entry is the row's potential evaporation. -/
theorem inputRow_last (x2 : Arr S65536) (x3 : Arr S16x16) (P : Fin 65536) :
    val_main_v81 (F := Ideal) x2 x3 (ix2 P (Fin.last 256)) = x2 (ix1 P) := by
  unfold val_main_v81
  rw [concatenate_pair_apply_right (t := S65536x257) (s₁ := S65536x256) (s₂ := S65536x1) (1 : Fin 2) _ _ concatenates_S65536x256_S65536x1_S65536x257_d1 (ix2 P (Fin.last 256)) rfl rfl
    (ix2 P (0 : Fin 1)) (fun b hb => by match b with | ⟨0, _⟩ => rfl | ⟨1, _⟩ => exact absurd rfl hb) rfl]
  exact peColumn_apply x2 P

/-- A bias vector of length 257 repeated down the rows. -/
theorem biasRows257_apply (bv : Arr S257) (P : Fin 65536) (j : Fin 257) :
    val_main_v84 (F := Ideal) bv (ix2 P j) = bv (ix1 j) := by
  rw [val_main_v84_apply, val_main_v83_apply]
  exact congrArg bv (funext fun c => Fin.ext (by match c with | ⟨0, _⟩ => rfl))

/-- The hidden layer at (P, j). -/
theorem hidden_apply (x2 : Arr S65536) (x3 : Arr S16x16) (x10 : Arr S257x257) (x11 : Arr S257) (P : Fin 65536) (j : Fin 257) :
    val_main_v86 (F := Ideal) x2 x3 x10 x11 (ix2 P j) = hidden (capOf x3) (x2 (ix1 P)) (matOf x10) (vecOf x11) j := by
  rw [val_main_v86_apply, val_main_call0_v0_apply, val_main_call0_cst_apply, val_main_v85_apply, biasRows257_apply]
  unfold val_main_v82
  rw [Cert.LibHostDot.dotGeneral_rows_cols_apply _ rfl rfl rfl rfl lhs_main_v82_0 rhs_main_v82_1,
    Fin.sum_univ_castSucc, inputRow_last]
  unfold hidden
  refine congrArg₂ max (congrArg (· + _) (congrArg (· + _) (Finset.sum_congr rfl fun k _ => ?_))) rfl
  rw [inputRow_castSucc]; rfl

/-- The perceptron's output before its softmax, at (P, q). -/
theorem logits_apply (x2 : Arr S65536) (x3 : Arr S16x16) (x10 : Arr S257x257) (x11 : Arr S257) (x12 : Arr S257x256)
    (x13 : Arr S256) (P : Fin 65536) (q : Fin 256) :
    val_main_v90 (F := Ideal) x2 x3 x10 x11 x12 x13 (ix2 P q)
      = dense (hidden (capOf x3) (x2 (ix1 P)) (matOf x10) (vecOf x11)) (matOf x12) (vecOf x13) q := by
  rw [val_main_v90_apply]
  unfold val_main_v87
  rw [Cert.LibHostDot.dotGeneral_rows_cols_apply _ rfl rfl rfl rfl lhs_main_v87_0 rhs_main_v87_1]
  unfold dense
  refine congrArg₂ (· + ·) (Finset.sum_congr rfl fun k _ => ?_) (biasRows_apply x13 P q)
  rw [hidden_apply]; rfl

end Cert.WaterBalance.Ref

end
-- ==== Proof.RefSoftmax.lean ====
/-
  The softmax of every row of a matrix, as a host program spells it, read entry by entry on the extended reals.

  The host takes each row's maximum by a reduction from an initial value, takes once more the maximum with a second
  vector, stands the result up as a column and repeats it along the rows, subtracts it from the matrix, exponentiates,
  sums each row from a second initial value, stands the sums up as a column, repeats them along the rows, and divides.
  When both initial values of the maximum are the word of −∞ and the sum's initial value is zero, entry (P, q) of the
  result is the weight of entry q in row P: the exponential of its distance below the row's maximum over the sum of the
  row's exponentials.  The second maximum changes nothing, because a fold of max from −∞ is at least −∞; the word of −∞
  is never evaluated.  All extents are variables, and the facts about the constants are hypotheses.
-/
import Idealize.ShloMosaic.Lib.Pipeline.Value
import Idealize.ShloMosaic.Lib.ValueIdx
import Idealize.ShloMosaic.PureOps.Ideal.Laws
import proofs.«127483_j85478439125664_1_alg».proof.Proof.LibCombine
import proofs.«127483_j85478439125664_1_alg».proof.Proof.LibAttn

noncomputable section

namespace Cert.WaterBalance.Ref

open Idealize.ShloMosaic Idealize.ShloMosaic.ValueIdx

/-! ## A row's maximum and a row's sum -/

/-- A host reduction with a maximum body over the columns of a matrix of extended reals, read at row b: the fold of max
    from the initial value over the row. -/
theorem hostMax_rows2 {B T : ℕ} (x : FVec Ideal ⟨2, ![B, T]⟩ .f32) {u : Shape} (init : u.Idx → EReal)
    (h' : (⟨2, ![B, T]⟩ : Shape).ReducesTo [1] ⟨1, ![B]⟩) (h : (⟨2, ![B, T]⟩ : Shape).Reduces [1] ⟨1, ![B]⟩)
    (hu : 0 < u.numel) (b : Fin B) :
    Host.reduce FloatOps.maximumf x init h' hu (ix1 b)
      = (Finset.univ : Finset (Fin T)).fold max (init (Shape.Idx.first hu)) (fun w => x (ix2 b w)) := by
  rw [Host.reduce_eq_fold_single FloatOps.maximumf x init h' h hu]
  refine congrArg (fun f => Finset.fold max (init (Shape.Idx.first hu)) f (Finset.univ : Finset (Fin T))) (funext fun w => ?_)
  exact congrArg x (funext fun ax => Fin.ext (by match ax with | ⟨0, _⟩ => rfl | ⟨1, _⟩ => rfl))

/-- A host sum over the columns of a matrix of extended reals, read at row b: the initial value plus the row's sum. -/
theorem hostSum_rows2 {B T : ℕ} (x : FVec Ideal ⟨2, ![B, T]⟩ .f32) {u : Shape} (init : u.Idx → EReal)
    (h' : (⟨2, ![B, T]⟩ : Shape).ReducesTo [1] ⟨1, ![B]⟩) (h : (⟨2, ![B, T]⟩ : Shape).Reduces [1] ⟨1, ![B]⟩)
    (hu : 0 < u.numel) (b : Fin B) :
    Host.reduceAdd (F := Ideal) x init h' hu (ix1 b) = init (Shape.Idx.first hu) + ∑ k : Fin T, x (ix2 b k) := by
  simp only [Host.reduceAdd, Ideal.hostReduceAdd_def]
  rw [Ideal.hostReduceAdd_single h' h]
  refine congrArg (_ + ·) (Finset.sum_congr rfl fun k _ => ?_)
  exact congrArg x (funext fun a => Fin.ext (by match a with | ⟨0, _⟩ => rfl | ⟨1, _⟩ => rfl))

section HostSoftmax

variable {B T : ℕ} (H : FVec Ideal ⟨2, ![B, T]⟩ .f32)
  (ninf : FVec Ideal ⟨1, ![B]⟩ .f32) (cm c0 : FVec Ideal ⟨0, ![]⟩ .f32)
  (hr' : (⟨2, ![B, T]⟩ : Shape).ReducesTo [1] ⟨1, ![B]⟩) (hr : (⟨2, ![B, T]⟩ : Shape).Reduces [1] ⟨1, ![B]⟩)
  (hu : 0 < (⟨0, ![]⟩ : Shape).numel)
  (h1 : (⟨1, ![B]⟩ : Shape).BroadcastsInDim ⟨2, ![B, 1]⟩ (![0] : Fin 1 → Fin 2))
  (h2 : (⟨2, ![B, 1]⟩ : Shape).BroadcastsInDim ⟨2, ![B, T]⟩ (![0, 1] : Fin 2 → Fin 2))

/-- A vector stood up as a column and repeated along the rows reads, at (P, q), its entry P. -/
theorem column_apply (v : FVec Ideal ⟨1, ![B]⟩ .f32) (P : Fin B) (q : Fin T) :
    broadcastInDim ⟨2, ![B, T]⟩ ![0, 1] h2 (broadcastInDim ⟨2, ![B, 1]⟩ ![0] h1 v) (ix2 P q) = v (ix1 P) := by
  rw [broadcastInDim_apply _ h2 _ (ix2 P q) (ix2 P (0 : Fin 1)) (fun a => by
    match a with
    | ⟨0, _⟩ => exact Cert.LibCombine.val_eq_ite (n := B) P
    | ⟨1, _⟩ => show (0 : Nat) = if (1 : Nat) = 1 then 0 else _; rw [if_pos rfl])]
  exact broadcastInDim_apply _ h1 v (ix2 P (0 : Fin 1)) (ix1 P) (fun a => by
    match a with
    | ⟨0, _⟩ => exact Cert.LibCombine.val_eq_ite (n := B) P)

/-- The row maxima: the reduction from its initial value, and once more the maximum with a second vector. -/
def hostRowMax : FVec Ideal ⟨1, ![B]⟩ .f32 :=
  maximumf ninf (Host.reduce FloatOps.maximumf H cm hr' hu)

/-- The exponentials of the distances below the row maxima. -/
def hostExpShift : FVec Ideal ⟨2, ![B, T]⟩ .f32 :=
  Host.exp (subf H (broadcastInDim ⟨2, ![B, T]⟩ ![0, 1] h2 (broadcastInDim ⟨2, ![B, 1]⟩ ![0] h1 (hostRowMax H ninf cm hr' hu))))

/-- The softmax of every row. -/
def hostSoftmax : FVec Ideal ⟨2, ![B, T]⟩ .f32 :=
  Host.divf (hostExpShift H ninf cm hr' hu h1 h2) (broadcastInDim ⟨2, ![B, T]⟩ ![0, 1] h2
    (broadcastInDim ⟨2, ![B, 1]⟩ ![0] h1 (Host.reduceAdd (hostExpShift H ninf cm hr' hu h1 h2) c0 hr' hu)))

variable (P : Fin B) (hninf : ninf (ix1 P) = Ideal.ofBits .f32 0xFF800000#32)
  (hcm : cm (Shape.Idx.first hu) = Ideal.ofBits .f32 0xFF800000#32) (hc0 : c0 (Shape.Idx.first hu) = 0)

include hr hninf hcm in
theorem hostRowMax_apply :
    hostRowMax H ninf cm hr' hu (ix1 P) = Cert.LibAttn.rowMax (fun t => H (ix2 P t)) := by
  unfold hostRowMax Cert.LibAttn.rowMax
  show max (ninf (ix1 P)) (Host.reduce FloatOps.maximumf H cm hr' hu (ix1 P)) = _
  rw [hostMax_rows2 H cm hr' hr hu P, hninf, hcm]
  exact max_eq_right ((Finset.le_fold_max _).2 (Or.inl le_rfl))

include hr hninf hcm in
theorem hostExpShift_apply (q : Fin T) :
    hostExpShift H ninf cm hr' hu h1 h2 (ix2 P q) = Cert.LibAttn.rowExp (fun t => H (ix2 P t)) q := by
  unfold hostExpShift Cert.LibAttn.rowExp
  show Ideal.exp (H (ix2 P q) - broadcastInDim ⟨2, ![B, T]⟩ ![0, 1] h2
    (broadcastInDim ⟨2, ![B, 1]⟩ ![0] h1 (hostRowMax H ninf cm hr' hu)) (ix2 P q)) = _
  rw [column_apply, hostRowMax_apply H ninf cm hr' hr hu P hninf hcm]

include hr hninf hcm hc0 in
theorem hostSoftmax_apply (q : Fin T) :
    hostSoftmax H ninf cm c0 hr' hu h1 h2 (ix2 P q) = Cert.LibAttn.rowWeight (fun t => H (ix2 P t)) q := by
  unfold hostSoftmax Cert.LibAttn.rowWeight
  show Ideal.div (hostExpShift H ninf cm hr' hu h1 h2 (ix2 P q)) (broadcastInDim ⟨2, ![B, T]⟩ ![0, 1] h2
    (broadcastInDim ⟨2, ![B, 1]⟩ ![0] h1 (Host.reduceAdd (hostExpShift H ninf cm hr' hu h1 h2) c0 hr' hu)) (ix2 P q)) = _
  rw [column_apply, hostSum_rows2 _ c0 hr' hr hu P, hc0, zero_add,
    hostExpShift_apply H ninf cm hr' hr hu h1 h2 P hninf hcm q]
  exact congrArg _ (Finset.sum_congr rfl fun k _ => hostExpShift_apply H ninf cm hr' hr hu h1 h2 P hninf hcm k)

end HostSoftmax

end Cert.WaterBalance.Ref

end
-- ==== Proof.Reference.lean ====
/-
  The reference program of the soil-water balance is the specification, entry by entry on the extended reals.

  The reference computes, over the whole batch at once, the soil water x ⊙ wc, the precipitation increment pr / 48, three
  mixing heads (each three times "add the increment, multiply by the head's matrix, add its bias", with tanh after the
  first two, the grid laid flat before each product and laid back after each tanh), the logistic function of the first
  head, the softmax of the other two and of the perceptron's output, and the products and differences that make the
  runoff.  Read at batch row P and grid cell (a, b), every stage is the row function of row P at the flat position
  16·a + b: a product with a 256 × 256 matrix at (P, q) is the sum over k of row P at k times the matrix at (k, q), and
  laying the grid flat sends cell (hi k, lo k) to position k.  The three heads are one term with different weights, and
  the three softmax stages are one term with different matrices, so each is read once.  Nothing here needs a finite
  entry: the two sides are the same sums, products and quotients in the same order.
-/
import proofs.«127483_j85478439125664_1_alg».proof.Proof.Gen.ReferenceIdeal.Read
import proofs.«127483_j85478439125664_1_alg».proof.Proof.Batch
import proofs.«127483_j85478439125664_1_alg».proof.Proof.LibHostDot
import proofs.«127483_j85478439125664_1_alg».proof.Proof.LibRowExpand
import proofs.«127483_j85478439125664_1_alg».proof.Proof.RefPerceptron
import proofs.«127483_j85478439125664_1_alg».proof.Proof.RefSoftmax

noncomputable section

namespace Cert.WaterBalance.Ref

open Cert.ReferenceIdeal Cert.ReferenceIdeal.Gen Cert.ReferenceIdeal.Read Idealize.ShloMosaic Idealize.ShloMosaic.ValueIdx
  Idealize.ShloMosaic.StableHlo

/-! ## The soil water and the precipitation increment -/

/-- The soil water of row P at cell (a, b): the ratio times the cell's capacity. -/
theorem soilWater_apply (x0 : Arr S65536x16x16) (x3 : Arr S16x16) (P : Fin 65536) (a b : Fin 16) :
    val_main_v2 (F := Ideal) x0 x3 (ix3 P a b) = x0 (ix3 P a b) * x3 (ix2 a b) := by
  rw [val_main_v2_apply, val_main_v1_apply, val_main_v0_apply]
  have e : idx_main_v0 (idx_main_v1 (ix3 P a b)) = ix2 a b :=
    funext fun c => Fin.ext (by match c with | ⟨0, _⟩ => rfl | ⟨1, _⟩ => rfl)
  rw [e]; rfl

/-- The increment of a row: its precipitation over 48. -/
theorem increment_apply (x1 : Arr S65536) (i : S65536x1x1.Idx) :
    val_main_v5 (F := Ideal) x1 i = incr (x1 (ix1 (i 0))) := by
  rw [val_main_v5_apply, val_main_v4_apply, val_main_v3_apply, val_main_cst_apply]
  have e : idx_main_v5 i = ix1 (i 0) := funext fun c => Fin.ext (by match c with | ⟨0, _⟩ => rfl)
  rw [e]; exact div48_eq_incr _

/-- The increment repeated over the grid. -/
theorem incrementGrid_apply (x1 : Arr S65536) (P : Fin 65536) (a b : Fin 16) :
    val_main_v6 (F := Ideal) x1 (ix3 P a b) = incr (x1 (ix1 P)) := by
  rw [val_main_v6_apply, increment_apply]; rfl

/-! ## One mixing step and one head -/

/-- One mixing step, as the host spells it, at (P, q): given the row of the grid array it starts from. -/
theorem layer_apply (X3 : Arr S65536x16x16) (x1 : Arr S65536) (W : Arr S256x256) (bv : Arr S256)
    (xr : Fin 256 → EReal) (P : Fin 65536) (q : Fin 256) (hx : ∀ k, X3 (ix3 P (hi k) (lo k)) = xr k) :
    addf (F := Ideal) (Host.dotGeneral (F := Ideal) dot_S65536x256_S256x256_S65536x256_1_0_0_1_n_n none
        (shapeCast _ (addf (F := Ideal) X3 (val_main_v6 (F := Ideal) x1)) shapeCasts_S65536x16x16_S65536x256) W)
      (val_main_v11 (F := Ideal) bv) (ix2 P q)
    = mixPre (incr (x1 (ix1 P))) (matOf W) (vecOf bv) xr q := by
  show Host.dotGeneral (F := Ideal) dot_S65536x256_S256x256_S65536x256_1_0_0_1_n_n none
        (shapeCast _ (addf (F := Ideal) X3 (val_main_v6 (F := Ideal) x1)) shapeCasts_S65536x16x16_S65536x256) W (ix2 P q)
      + val_main_v11 (F := Ideal) bv (ix2 P q) = _
  rw [Cert.LibHostDot.dotGeneral_rows_cols_apply _ rfl rfl rfl rfl lhs_main_v9_0 rhs_main_v9_1, biasRows_apply]
  unfold mixPre dense
  refine congrArg (· + _) (Finset.sum_congr rfl fun k _ => ?_)
  rw [Cert.LibRowExpand.shapeCast_abc_aw_apply _ _ rfl P (hi k) (lo k) k (val_eq_hi_lo k)]
  show (X3 (ix3 P (hi k) (lo k)) + val_main_v6 (F := Ideal) x1 (ix3 P (hi k) (lo k))) * _ = _
  rw [hx k, incrementGrid_apply]; rfl

/-- A matrix under tanh laid back on the grid reads, at the cell of flat position k, tanh of column k. -/
theorem tanhGrid_apply (H : Arr S65536x256) (P : Fin 65536) (k : Fin 256) :
    shapeCast _ (Host.tanh (F := Ideal) H) shapeCasts_S65536x256_S65536x16x16 (ix3 P (hi k) (lo k)) = Ideal.tanh (H (ix2 P k)) :=
  Cert.LibRowExpand.shapeCast_aw_abc_apply _ _ rfl P (hi k) (lo k) k (val_eq_hi_lo k)

/-- A mixing head at (P, q): three steps from the row's soil water. -/
theorem head_apply (x0 : Arr S65536x16x16) (x1 : Arr S65536) (x3 : Arr S16x16) (W : Arr S256x256) (bv : Arr S256)
    (P : Fin 65536) (q : Fin 256) :
    val_main_v30 (F := Ideal) x0 x1 x3 W bv (ix2 P q)
      = mix3 (incr (x1 (ix1 P))) (matOf W) (vecOf bv) (fun k => rowOf x0 P k * capOf x3 k) q := by
  unfold mix3
  refine layer_apply (val_main_v23 (F := Ideal) x0 x1 x3 W bv) x1 W bv _ P q (fun k => ?_)
  refine (tanhGrid_apply (val_main_v21 (F := Ideal) x0 x1 x3 W bv) P k).trans (congrArg Ideal.tanh ?_)
  refine layer_apply (val_main_v14 (F := Ideal) x0 x1 x3 W bv) x1 W bv _ P k (fun j => ?_)
  refine (tanhGrid_apply (val_main_v12 (F := Ideal) x0 x1 x3 W bv) P j).trans (congrArg Ideal.tanh ?_)
  exact layer_apply (val_main_v2 (F := Ideal) x0 x3) x1 W bv _ P j (fun i => soilWater_apply x0 x3 P (hi i) (lo i))

/-! ## The new ratio -/

/-- The first result at (P, a, b): the logistic function of the first head at the cell's flat position. -/
theorem ratio_apply (x0 : Arr S65536x16x16) (x1 : Arr S65536) (x3 : Arr S16x16) (x4 : Arr S256x256) (x5 : Arr S256)
    (P : Fin 65536) (a b : Fin 16) :
    val_main_v37 (F := Ideal) x0 x1 x3 x4 x5 (ix3 P a b)
      = Ideal.logistic (val_main_v30 (F := Ideal) x0 x1 x3 x4 x5 (ix2 P (cell a b))) := by
  refine (Cert.LibRowExpand.shapeCast_aw_abc_apply (val_main_v36 (F := Ideal) x0 x1 x3 x4 x5)
    shapeCasts_S65536x256_S65536x16x16 rfl P a b (cell a b) rfl).trans ?_
  rw [val_main_v36_apply, val_main_v35_apply, val_main_cst_1_apply, val_main_v34_apply, val_main_v33_apply,
    val_main_cst_0_apply, val_main_v32_apply, val_main_v31_apply]
  exact logistic_eq _

/-- THE FIRST RESULT: the reference's new soil-water ratios are the specification's, over the whole batch. -/
theorem ratio_eq (x0 : Arr S65536x16x16) (x1 : Arr S65536) (x3 : Arr S16x16) (x4 : Arr S256x256) (x5 : Arr S256)
    (x6 : Arr S256x256) (x7 : Arr S256) (x8 : Arr S256x256) (x9 : Arr S256) (x10 : Arr S257x257) (x11 : Arr S257)
    (x12 : Arr S257x256) (x13 : Arr S256) :
    val_main_v37 (F := Ideal) x0 x1 x3 x4 x5 = ratioArr x0 x1 x3 (weightsOf x4 x5 x6 x7 x8 x9 x10 x11 x12 x13) := by
  funext i
  obtain ⟨P, a, b, rfl⟩ : ∃ (P : Fin 65536) (a b : Fin 16), i = ix3 P a b := ⟨i 0, i 1, i 2, eq_ix3 i⟩
  rw [ratio_apply, head_apply]; rfl

/-! ## The softmax at the reference's shape -/

/-- Dropping the second axis of a 65536 × 256 matrix leaves a vector of length 65536. -/
theorem reduces_rows : S65536x256.Reduces [1] S65536 := by decide

/-- The softmax of every row of a 65536 × 256 matrix, with the reference's constants. -/
def refSoftmax (H : Arr S65536x256) : Arr S65536x256 :=
  hostSoftmax (B := 65536) (T := 256) H (val_main_v64 (F := Ideal)) (val_main_cst_2 (F := Ideal)) (val_main_cst_4 (F := Ideal))
    reducesTo_S65536x256_S65536_d1 h_S_ bcast_S65536_S65536x1_0 bcast_S65536x1_S65536x256_0_1

/-- Entry (P, q) of that softmax is the weight of entry q in row P. -/
theorem refSoftmax_apply (H : Arr S65536x256) (P : Fin 65536) (q : Fin 256) :
    refSoftmax H (ix2 P q) = softmax (fun t => H (ix2 P t)) q :=
  hostSoftmax_apply (B := 65536) (T := 256) H (val_main_v64 (F := Ideal)) (val_main_cst_2 (F := Ideal))
    (val_main_cst_4 (F := Ideal)) reducesTo_S65536x256_S65536_d1 reduces_rows h_S_ bcast_S65536_S65536x1_0
    bcast_S65536x1_S65536x256_0_1 P
    ((val_main_v64_apply (F := Ideal) (ix1 P)).trans ((val_main_cst_3_apply (F := Ideal) _).trans (Ideal.ofBits_def _)))
    ((val_main_cst_2_apply (F := Ideal) _).trans (Ideal.ofBits_def _))
    ((val_main_cst_4_apply (F := Ideal) _).trans ((Ideal.ofBits_def _).trans Ideal.ofBits_zero_f32)) q

/-- The three softmax stages of the reference are this softmax of their matrices. -/
theorem infSoftmax_eq (x0 : Arr S65536x16x16) (x1 : Arr S65536) (x3 : Arr S16x16) (x6 : Arr S256x256) (x7 : Arr S256) :
    val_main_v73 (F := Ideal) x0 x1 x3 x6 x7 = refSoftmax (val_main_v30 (F := Ideal) x0 x1 x3 x6 x7) := rfl

theorem evSoftmax_eq (x0 : Arr S65536x16x16) (x1 : Arr S65536) (x3 : Arr S16x16) (x8 : Arr S256x256) (x9 : Arr S256) :
    val_main_v141 (F := Ideal) x0 x1 x3 x8 x9 = refSoftmax (val_main_v30 (F := Ideal) x0 x1 x3 x8 x9) := rfl

theorem potSoftmax_eq (x2 : Arr S65536) (x3 : Arr S16x16) (x10 : Arr S257x257) (x11 : Arr S257) (x12 : Arr S257x256)
    (x13 : Arr S256) :
    val_main_v101 (F := Ideal) x2 x3 x10 x11 x12 x13 = refSoftmax (val_main_v90 (F := Ideal) x2 x3 x10 x11 x12 x13) := rfl

/-! ## The runoff -/

/-- A per-row scalar repeated over the grid reads, at (P, a, b), the scalar of row P. -/
theorem rowScalarGrid_apply (x : Arr S65536) (P : Fin 65536) (a b : Fin 16) :
    val_main_v76 (F := Ideal) x (ix3 P a b) = x (ix1 P) := by
  rw [val_main_v76_apply, val_main_v75_apply]
  exact congrArg x (funext fun c => Fin.ext (by match c with | ⟨0, _⟩ => rfl))

/-- The capacities repeated over the batch read, at (P, a, b), the capacity at the cell's flat position. -/
theorem capGrid_apply (x3 : Arr S16x16) (P : Fin 65536) (a b : Fin 16) :
    val_main_v147 (F := Ideal) x3 (ix3 P a b) = capOf x3 (cell a b) := by
  rw [val_main_v147_apply, val_main_v146_apply]
  unfold capOf
  rw [hi_cell, lo_cell]
  exact congrArg x3 (funext fun c => Fin.ext (by match c with | ⟨0, _⟩ => rfl | ⟨1, _⟩ => rfl))

/-- The softmax of a matrix laid back on the grid, at (P, a, b). -/
theorem softmaxGrid_apply (H : Arr S65536x256) (P : Fin 65536) (a b : Fin 16) :
    shapeCast _ (refSoftmax H) shapeCasts_S65536x256_S65536x16x16 (ix3 P a b) = softmax (fun t => H (ix2 P t)) (cell a b) :=
  (Cert.LibRowExpand.shapeCast_aw_abc_apply _ _ rfl P a b (cell a b) rfl).trans (refSoftmax_apply H P (cell a b))

/-- The infiltration ratios on the grid. -/
theorem infRatio_apply (x0 : Arr S65536x16x16) (x1 : Arr S65536) (x3 : Arr S16x16) (x6 : Arr S256x256) (x7 : Arr S256)
    (P : Fin 65536) (a b : Fin 16) :
    val_main_v74 (F := Ideal) x0 x1 x3 x6 x7 (ix3 P a b)
      = softmax (mix3 (incr (x1 (ix1 P))) (matOf x6) (vecOf x7) (fun k => rowOf x0 P k * capOf x3 k)) (cell a b) := by
  unfold val_main_v74
  rw [infSoftmax_eq]
  exact (softmaxGrid_apply _ P a b).trans
    (congrArg (fun h => softmax h (cell a b)) (funext fun t => head_apply x0 x1 x3 x6 x7 P t))

/-- The evaporation ratios on the grid. -/
theorem evRatio_apply (x0 : Arr S65536x16x16) (x1 : Arr S65536) (x3 : Arr S16x16) (x8 : Arr S256x256) (x9 : Arr S256)
    (P : Fin 65536) (a b : Fin 16) :
    val_main_v142 (F := Ideal) x0 x1 x3 x8 x9 (ix3 P a b)
      = softmax (mix3 (incr (x1 (ix1 P))) (matOf x8) (vecOf x9) (fun k => rowOf x0 P k * capOf x3 k)) (cell a b) := by
  unfold val_main_v142
  rw [evSoftmax_eq]
  exact (softmaxGrid_apply _ P a b).trans
    (congrArg (fun h => softmax h (cell a b)) (funext fun t => head_apply x0 x1 x3 x8 x9 P t))

/-- The shares of the potential evaporation on the grid. -/
theorem potRatio_apply (x2 : Arr S65536) (x3 : Arr S16x16) (x10 : Arr S257x257) (x11 : Arr S257) (x12 : Arr S257x256)
    (x13 : Arr S256) (P : Fin 65536) (a b : Fin 16) :
    val_main_v102 (F := Ideal) x2 x3 x10 x11 x12 x13 (ix3 P a b)
      = softmax (dense (hidden (capOf x3) (x2 (ix1 P)) (matOf x10) (vecOf x11)) (matOf x12) (vecOf x13)) (cell a b) := by
  unfold val_main_v102
  rw [potSoftmax_eq]
  exact (softmaxGrid_apply _ P a b).trans
    (congrArg (fun h => softmax h (cell a b)) (funext fun t => logits_apply x2 x3 x10 x11 x12 x13 P t))

/-- THE SECOND RESULT: the reference's runoff is the specification's, over the whole batch. -/
theorem runoff_eq (x0 : Arr S65536x16x16) (x1 x2 : Arr S65536) (x3 : Arr S16x16) (x4 : Arr S256x256) (x5 : Arr S256)
    (x6 : Arr S256x256) (x7 : Arr S256) (x8 : Arr S256x256) (x9 : Arr S256) (x10 : Arr S257x257) (x11 : Arr S257)
    (x12 : Arr S257x256) (x13 : Arr S256) :
    val_main_v149 (F := Ideal) x0 x1 x2 x3 x4 x5 x6 x7 x8 x9 x10 x11 x12 x13
      = runoffArr x0 x1 x2 x3 (weightsOf x4 x5 x6 x7 x8 x9 x10 x11 x12 x13) := by
  funext i
  obtain ⟨P, a, b, rfl⟩ : ∃ (P : Fin 65536) (a b : Fin 16), i = ix3 P a b := ⟨i 0, i 1, i 2, eq_ix3 i⟩
  have ex : x0 (ix3 P a b) = rowOf x0 P (cell a b) := by unfold rowOf; rw [hi_cell, lo_cell]
  rw [val_main_v149_apply, val_main_v144_apply, val_main_v148_apply, val_main_v145_apply, val_main_v143_apply,
    val_main_v77_apply, val_main_v105_apply, infRatio_apply, evRatio_apply, potRatio_apply, rowScalarGrid_apply,
    show val_main_v104 (F := Ideal) x2 = val_main_v76 (F := Ideal) x2 from rfl, rowScalarGrid_apply, capGrid_apply,
    ratio_apply, head_apply, ex]
  rfl

end Cert.WaterBalance.Ref

end
-- ==== Proof.lean ====
/-
  A soil-water balance step: the tiled kernel against the whole-batch reference, on the extended reals.

  Both programs compute, for each of 65536 batch rows, a new soil-water ratio (a three-layer mixing head ending in the
  logistic function) and a runoff (infiltration − evaporation − the change of stored water), where infiltration and
  evaporation are softmax-normalised mixing heads scaled by the row's precipitation and by a perceptron's spread of the
  row's potential evaporation.  The kernel works on 64 blocks of 1024 rows laid flat as 256 columns; the reference works
  on the whole batch in its 16 × 16 grid layout.  Every entry of the results is a function of its own batch row and of
  the weights only (Proof/WaterBalance.lean), so the two agree once each is read at an entry:
    · the kernel's blocks tile the batch, and row p of block t is batch row 1024·t + p (Proof/KernelBatch.lean over
      Proof/KernelRow.lean and Proof/BlockLayers.lean);
    · the kernel multiplies the precipitation by the named constant 1/48 where the reference divides by 48 — equal on
      every extended real;
    · the kernel feeds the perceptron's first layer as (capacities · first 256 rows) + (potential evaporation · last row)
      where the reference multiplies the joined row of length 257 by the whole matrix — a sum split into its first 256
      terms and its last;
    · a product into a zero accumulator is the plain sum, narrowing a float format is the identity, and the logistic
      function is 1 / (1 + exp(−h)) by definition.
  Only associativity and commutativity of sums are used: the finiteness of the inputs is never needed.
-/
import proofs.«127483_j85478439125664_1_alg».proof.Defs
import proofs.«127483_j85478439125664_1_alg».proof.Proof.Gen.Kernel
import proofs.«127483_j85478439125664_1_alg».proof.Proof.Gen.Kernel.Skeleton
import proofs.«127483_j85478439125664_1_alg».proof.Proof.Gen.Kernel.Launch
import proofs.«127483_j85478439125664_1_alg».proof.Proof.Gen.Kernel.Points
import proofs.«127483_j85478439125664_1_alg».proof.Proof.Gen.Kernel.Frame
import proofs.«127483_j85478439125664_1_alg».proof.Proof.Gen.KernelIdeal
import proofs.«127483_j85478439125664_1_alg».proof.Proof.Gen.KernelIdeal.Skeleton
import proofs.«127483_j85478439125664_1_alg».proof.Proof.Gen.KernelIdeal.Launch
import proofs.«127483_j85478439125664_1_alg».proof.Proof.Gen.KernelIdeal.Points
import proofs.«127483_j85478439125664_1_alg».proof.Proof.Gen.KernelIdeal.Frame
import proofs.«127483_j85478439125664_1_alg».proof.Proof.Gen.ReferenceIdeal
import proofs.«127483_j85478439125664_1_alg».proof.Proof.Gen.Pre_finite_inputs
import proofs.«127483_j85478439125664_1_alg».proof.Proof.Gen.ReferenceIdeal.Run
import proofs.«127483_j85478439125664_1_alg».proof.Proof.Gen.ReferenceIdeal.Read
import proofs.«127483_j85478439125664_1_alg».proof.Proof.KernelBatch
import proofs.«127483_j85478439125664_1_alg».proof.Proof.Reference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the constant 0.020833334 is read as the rational 1/48. -/
theorem preserves : Cert.preserves_Kernel_KernelIdeal :=
  IdealRules.named_const.statement Cert.KernelIdeal.κ "inv_48" .f32 0x3CAAAAAB#32 ((1 / 48 : ℝ) : EReal) rfl

/-- From memories agreeing on the arguments both programs end with the batch's runoff and new ratios. -/
theorem algebraic : Cert.algebraic_KernelIdeal_ReferenceIdeal := by
  intro m ρ m' ρ' _ hagree
  refine ⟨_, _, Cert.WaterBalance.Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13⟩ := hagree c
    rw [Cert.ReferenceIdeal.Read.val_main_v149_eq, Cert.WaterBalance.Ref.runoff_eq, h0, h1, h2, h3, h4, h5, h6, h7, h8, h9, h10, h11, h12, h13]
    rfl
  · obtain ⟨h0, h1, h2, h3, h4, h5, h6, h7, h8, h9, h10, h11, h12, h13⟩ := hagree c
    rw [Cert.ReferenceIdeal.Read.val_main_v37_eq,
      Cert.WaterBalance.Ref.ratio_eq _ _ _ _ _ (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13)),
      h0, h1, h3, h4, h5, h6, h7, h8, h9, h10, h11, h12, h13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
